-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x32x128 : Shape := ⟨3, ![2048, 32, 128]⟩
abbrev S2048x32x8 : Shape := ⟨3, ![2048, 32, 8]⟩
abbrev S256x128 : Shape := ⟨2, ![256, 128]⟩
abbrev S256 : Shape := ⟨1, ![256]⟩
abbrev S256x256 : Shape := ⟨2, ![256, 256]⟩
abbrev S768x256 : Shape := ⟨2, ![768, 256]⟩
abbrev S768 : Shape := ⟨1, ![768]⟩
abbrev S1x256 : Shape := ⟨2, ![1, 256]⟩
abbrev S1 : Shape := ⟨1, ![1]⟩
abbrev S_ : Shape := ⟨0, ![]⟩

class Facts : Prop where
  bcast_S_S2048x32x128 : S_.BroadcastsInDim S2048x32x128 (![] : Fin 0 → Fin S2048x32x128.rank)
  reducesTo_S2048x32x128_S_d0_1_2 : S2048x32x128.ReducesTo [0, 1, 2] S_
  h_S_ : 0 < S_.numel
  bcast_S_S2048x32x8 : S_.BroadcastsInDim S2048x32x8 (![] : Fin 0 → Fin S2048x32x8.rank)
  reducesTo_S2048x32x8_S_d0_1_2 : S2048x32x8.ReducesTo [0, 1, 2] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S1x256 .f32) (main_v50 : FVec F S1x256 .f32) : IVec S_ 1 :=
  let main_v51 : IVec S1x256 1 := cmpf .olt main_v49 main_v50
  let main_c_19 : IVec S_ 1 := constantI S_ 1 1#1
  let main_v52 : IVec S_ 1 := (fun x v => Host.reduce IntOp.andi x v reducesTo_S1x256_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S768 .f32) (main_arg8 : FVec F S768x256 .f32) (main_arg9 : FVec F S768 .f32) (main_arg10 : FVec F S1x256 .f32) (main_arg11 : FVec F S1 .f32) (main_v33 : IVec S_ 1) : IVec S_ 1 :=
  let main_v34 : FVec F S768 .f32 := Host.absf main_arg7
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  let main_v39 : FVec F S768x256 .f32 := Host.absf main_arg8
  let main_cst_14 : FVec F S_ .f32 := constant S_ .f32 0x7F800000#32
  let main_v40 : FVec F S768x256 .f32 := broadcastInDim S768x256 ![] bcast_S_S768x256 main_cst_14
  let main_v41 : IVec S768x256 1 := cmpf .olt main_v39 main_v40
  let main_c_15 : IVec S_ 1 := constantI S_ 1 1#1
  let main_v42 : IVec S_ 1 := (fun x v => Host.reduce IntOp.andi x v reducesTo_S768x256_S_d0_1 h_S_) main_v41 main_c_15
  let main_v43 : IVec S_ 1 := andi main_v38 main_v42
  let main_v44 : FVec F S768 .f32 := Host.absf main_arg9
  let main_cst_16 : FVec F S_ .f32 := constant S_ .f32 0x7F800000#32
  let main_v45 : FVec F S768 .f32 := broadcastInDim S768 ![] bcast_S_S768 main_cst_16
  let main_v46 : IVec S768 1 := cmpf .olt main_v44 main_v45
  let main_c_17 : IVec S_ 1 := constantI S_ 1 1#1
  let main_v47 : IVec S_ 1 := (fun x v => Host.reduce IntOp.andi x v reducesTo_S768_S_d0 h_S_) main_v46 main_c_17
  let main_v48 : IVec S_ 1 := andi main_v43 main_v47
  let main_v49 : FVec F S1x256 .f32 := Host.absf main_arg10
  let main_cst_18 : FVec F S_ .f32 := constant S_ .f32 0x7F800000#32
  let main_v50 : FVec F S1x256 .f32 := broadcastInDim S1x256 ![] bcast_S_S1x256 main_cst_18
  fn_part3 (F := F) main_arg11 main_v48 main_v49 main_v50

def fn_part1 {F : FTy → Type} [FloatOps F] (main_arg4 : FVec F S256x256 .f32) (main_arg5 : FVec F S256 .f32) (main_arg6 : FVec F S768x256 .f32) (main_arg7 : FVec F S768 .f32) (main_arg8 : FVec F S768x256 .f32) (main_arg9 : FVec F S768 .f32) (main_arg10 : FVec F S1x256 .f32) (main_arg11 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S768x256 .f32 := Host.absf main_arg6
  let main_cst_10 : FVec F S_ .f32 := constant S_ .f32 0x7F800000#32
  let main_v30 : FVec F S768x256 .f32 := broadcastInDim S768x256 ![] bcast_S_S768x256 main_cst_10
  let main_v31 : IVec S768x256 1 := cmpf .olt main_v29 main_v30
  let main_c_11 : IVec S_ 1 := constantI S_ 1 1#1
  let main_v32 : IVec S_ 1 := (fun x v => Host.reduce IntOp.andi x v reducesTo_S768x256_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S2048x32x128 .f32) (main_arg1 : FVec F S2048x32x8 .f32) (main_arg2 : FVec F S256x128 .f32) (main_arg3 : FVec F S256 .f32) (main_arg4 : FVec F S256x256 .f32) (main_arg5 : FVec F S256 .f32) (main_arg6 : FVec F S768x256 .f32) (main_arg7 : FVec F S768 .f32) (main_arg8 : FVec F S768x256 .f32) (main_arg9 : FVec F S768 .f32) (main_arg10 : FVec F S1x256 .f32) (main_arg11 : FVec F S1 .f32) : IVec S_ 1 :=
  let main_v0 : FVec F S2048x32x128 .f32 := Host.absf main_arg0
  let main_cst : FVec F S_ .f32 := constant S_ .f32 0x7F800000#32
  let main_v1 : FVec F S2048x32x128 .f32 := broadcastInDim S2048x32x128 ![] bcast_S_S2048x32x128 main_cst
  let main_v2 : IVec S2048x32x128 1 := cmpf .olt main_v0 main_v1
  let main_c : IVec S_ 1 := constantI S_ 1 1#1
  let main_v3 : IVec S_ 1 := (fun x v => Host.reduce IntOp.andi x v reducesTo_S2048x32x128_S_d0_1_2 h_S_) main_v2 main_c
  let main_v4 : FVec F S2048x32x8 .f32 := Host.absf main_arg1
  let main_cst_0 : FVec F S_ .f32 := constant S_ .f32 0x7F800000#32
  let main_v5 : FVec F S2048x32x8 .f32 := broadcastInDim S2048x32x8 ![] bcast_S_S2048x32x8 main_cst_0
  let main_v6 : IVec S2048x32x8 1 := cmpf .olt main_v4 main_v5
  let main_c_1 : IVec S_ 1 := constantI S_ 1 1#1
  let main_v7 : IVec S_ 1 := (fun x v => Host.reduce IntOp.andi x v reducesTo_S2048x32x8_S_d0_1_2 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_v13 main_v16
-- ==== Kernel.lean ====
abbrev S2048x32x128 : Shape := ⟨3, ![2048, 32, 128]⟩
abbrev S2048x32x8 : Shape := ⟨3, ![2048, 32, 8]⟩
abbrev S256x128 : Shape := ⟨2, ![256, 128]⟩
abbrev S256 : Shape := ⟨1, ![256]⟩
abbrev S256x256 : Shape := ⟨2, ![256, 256]⟩
abbrev S768x256 : Shape := ⟨2, ![768, 256]⟩
abbrev S768 : Shape := ⟨1, ![768]⟩
abbrev S1x256 : Shape := ⟨2, ![1, 256]⟩
abbrev S1 : Shape := ⟨1, ![1]⟩
abbrev S65536x128 : Shape := ⟨2, ![65536, 128]⟩
abbrev S128x256 : Shape := ⟨2, ![128, 256]⟩
abbrev S256x768 : Shape := ⟨2, ![256, 768]⟩
abbrev S256x1 : Shape := ⟨2, ![256, 1]⟩
abbrev S1x768 : Shape := ⟨2, ![1, 768]⟩
abbrev S1x1 : Shape := ⟨2, ![1, 1]⟩
abbrev S65536x1 : Shape := ⟨2, ![65536, 1]⟩
abbrev S1024x128 : Shape := ⟨2, ![1024, 128]⟩
abbrev S1024x1 : Shape := ⟨2, ![1024, 1]⟩
abbrev S1024x256 : Shape := ⟨2, ![1024, 256]⟩
abbrev S1024x768 : Shape := ⟨2, ![1024, 768]⟩
abbrev S32x32x256 : Shape := ⟨3, ![32, 32, 256]⟩
abbrev S32x256 : Shape := ⟨2, ![32, 256]⟩
abbrev S32x1x256 : Shape := ⟨3, ![32, 1, 256]⟩
abbrev S2048x32x1 : Shape := ⟨3, ![2048, 32, 1]⟩

abbrev nBuf : Space → Nat
  | .hbm => 25
  | .vmem => 14
  | .smem => 0
  | _ => 0

abbrev bufTy : (tb : Table) → Fin (tcTables nBuf tb) → BufTy
  | .hbm, ⟨0, _⟩ => ⟨S2048x32x128, .f32⟩
  | .hbm, ⟨1, _⟩ => ⟨S2048x32x8, .f32⟩
  | .hbm, ⟨2, _⟩ => ⟨S256x128, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S768x256, .f32⟩
  | .hbm, ⟨7, _⟩ => ⟨S768, .f32⟩
  | .hbm, ⟨8, _⟩ => ⟨S768x256, .f32⟩
  | .hbm, ⟨9, _⟩ => ⟨S768, .f32⟩
  | .hbm, ⟨10, _⟩ => ⟨S1x256, .f32⟩
  | .hbm, ⟨11, _⟩ => ⟨S1, .f32⟩
  | .hbm, ⟨12, _⟩ => ⟨S65536x128, .f32⟩
  | .hbm, ⟨13, _⟩ => ⟨S128x256, .f32⟩
  | .hbm, ⟨14, _⟩ => ⟨S256x256, .f32⟩
  | .hbm, ⟨15, _⟩ => ⟨S256x768, .f32⟩
  | .hbm, ⟨16, _⟩ => ⟨S256x768, .f32⟩
  | .hbm, ⟨17, _⟩ => ⟨S256x1, .f32⟩
  | .hbm, ⟨18, _⟩ => ⟨S1x256, .f32⟩
  | .hbm, ⟨19, _⟩ => ⟨S1x256, .f32⟩
  | .hbm, ⟨20, _⟩ => ⟨S1x768, .f32⟩
  | .hbm, ⟨21, _⟩ => ⟨S1x768, .f32⟩
  | .hbm, ⟨22, _⟩ => ⟨S1x1, .f32⟩
  | .hbm, ⟨23, _⟩ => ⟨S65536x1, .f32⟩
  | .hbm, ⟨24, _⟩ => ⟨S2048x32x1, .f32⟩
  | .local _ .vmem, ⟨0, _⟩ => ⟨S1024x128, .f32⟩
  | .local _ .vmem, ⟨1, _⟩ => ⟨S1024x128, .f32⟩
  | .local _ .vmem, ⟨2, _⟩ => ⟨S128x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S256x768, .f32⟩
  | .local _ .vmem, ⟨7, _⟩ => ⟨S1x768, .f32⟩
  | .local _ .vmem, ⟨8, _⟩ => ⟨S256x768, .f32⟩
  | .local _ .vmem, ⟨9, _⟩ => ⟨S1x768, .f32⟩
  | .local _ .vmem, ⟨10, _⟩ => ⟨S256x1, .f32⟩
  | .local _ .vmem, ⟨11, _⟩ => ⟨S1x1, .f32⟩
  | .local _ .vmem, ⟨12, _⟩ => ⟨S1024x1, .f32⟩
  | .local _ .vmem, ⟨13, _⟩ => ⟨S1024x1, .f32⟩
  | _, _ => ⟨S2048x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S2048x32x128_S65536x128 : S2048x32x128.ShapeCasts S65536x128
  transposes_S256x128_S128x256_1_0 : S256x128.Transposes [1, 0] S128x256
  transposes_S256x256_S256x256_1_0 : S256x256.Transposes [1, 0] S256x256
  transposes_S768x256_S256x768_1_0 : S768x256.Transposes [1, 0] S256x768
  transposes_S1x256_S256x1_1_0 : S1x256.Transposes [1, 0] S256x1
  shapeCasts_S256_S1x256 : S256.ShapeCasts S1x256
  shapeCasts_S768_S1x768 : S768.ShapeCasts S1x768
  shapeCasts_S1_S1x1 : S1.ShapeCasts S1x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  bitsLt_bf16_f32 : FTy.bits .bf16 < FTy.bits .f32
  broadcasts_S1x256_S1024x256 : S1x256.Broadcasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  slices_S1024x768_o0_0_S1024x256 : S1024x768.Slices ![0, 0] S1024x256
  slices_S1024x768_o0_256_S1024x256 : S1024x768.Slices ![0, 256] S1024x256
  slices_S1024x768_o0_512_S1024x256 : S1024x768.Slices ![0, 512] S1024x256
  shapeCasts_S1024x256_S32x32x256 : S1024x256.ShapeCasts S32x32x256
  reduces_S32x32x256_S32x256 : S32x32x256.Reduces [1] S32x256
  shapeCasts_S32x256_S32x1x256 : S32x256.ShapeCasts S32x1x256
  broadcasts_S32x1x256_S32x32x256 : S32x1x256.Broadcasts S32x32x256
  shapeCasts_S32x32x256_S1024x256 : S32x32x256.ShapeCasts S1024x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  shapeCasts_S65536x1_S2048x32x1 : S65536x1.ShapeCasts S2048x32x1
  dot_S1024x128_S128x256_S1024x256_1_0_0_1_n_n_wf : DotDims.WF S1024x128 S128x256 S1024x256 [1] [0] [0] [1] [] []
  dot_S1024x256_S256x256_S1024x256_1_0_0_1_n_n_wf : DotDims.WF S1024x256 S256x256 S1024x256 [1] [0] [0] [1] [] []
  dot_S1024x256_S256x768_S1024x768_1_0_0_1_n_n_wf : DotDims.WF S1024x256 S256x768 S1024x768 [1] [0] [0] [1] [] []
  dot_S1024x256_S256x1_S1024x1_1_0_0_1_n_n_wf : DotDims.WF S1024x256 S256x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S65536x128.size a
  hwx0_0 : ∀ i : grid0.Coords, EltTy.bits .f32 = 32 ∨ (Rect.block (s := S65536x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x768.size a ≤ S256x768.size a
  hwx0_5 : ∀ i : grid0.Coords, EltTy.bits .f32 = 32 ∨ (Rect.block (s := S256x768) S256x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x768.size a ≤ S1x768.size a
  hwx0_6 : ∀ i : grid0.Coords, EltTy.bits .f32 = 32 ∨ (Rect.block (s := S1x768) S1x768.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x768.size a ≤ S256x768.size a
  hwx0_7 : ∀ i : grid0.Coords, EltTy.bits .f32 = 32 ∨ (Rect.block (s := S256x768) S256x768.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x768.size a ≤ S1x768.size a
  hwx0_8 : ∀ i : grid0.Coords, EltTy.bits .f32 = 32 ∨ (Rect.block (s := S1x768) S1x768.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x1.size a ≤ S256x1.size a
  hwx0_9 : ∀ i : grid0.Coords, EltTy.bits .f32 = 32 ∨ (Rect.block (s := S256x1) S256x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x1.size a ≤ S65536x1.size a
  hwx0_11 : ∀ i : grid0.Coords, EltTy.bits .f32 = 32 ∨ (Rect.block (s := S65536x1) S1024x1.size (cc0_transform_11 i) (hinb0_11 i)).WholeWords (EltTy.packing .f32)

variable [Facts₀]

def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf
def dot_S1024x256_S256x1_S1024x1_1_0_0_1_n_n : DotDims S1024x256 S256x1 S1024x1 where
  lhsContracting := [1]
  rhsContracting := [0]
  lhsNonContracting := [0]
  rhsNonContracting := [1]
  lhsBatch := []
  rhsBatch := []
  wf := dot_S1024x256_S256x1_S1024x1_1_0_0_1_n_n_wf

abbrev win0_0 : Pipeline.Window sig grid0 :=
  Pipeline.Window.ofSpec (Memref.whole main_v0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S256x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S256x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x768.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S256x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S1024x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S2048x32x128 : Shape := ⟨3, ![2048, 32, 128]⟩
abbrev S2048x32x8 : Shape := ⟨3, ![2048, 32, 8]⟩
abbrev S256x128 : Shape := ⟨2, ![256, 128]⟩
abbrev S256 : Shape := ⟨1, ![256]⟩
abbrev S256x256 : Shape := ⟨2, ![256, 256]⟩
abbrev S768x256 : Shape := ⟨2, ![768, 256]⟩
abbrev S768 : Shape := ⟨1, ![768]⟩
abbrev S1x256 : Shape := ⟨2, ![1, 256]⟩
abbrev S1 : Shape := ⟨1, ![1]⟩
abbrev S65536x128 : Shape := ⟨2, ![65536, 128]⟩
abbrev S128x256 : Shape := ⟨2, ![128, 256]⟩
abbrev S65536x256 : Shape := ⟨2, ![65536, 256]⟩
abbrev S_ : Shape := ⟨0, ![]⟩
abbrev S256x768 : Shape := ⟨2, ![256, 768]⟩
abbrev S65536x768 : Shape := ⟨2, ![65536, 768]⟩
abbrev S1x768 : Shape := ⟨2, ![1, 768]⟩
abbrev S2048x32x256 : Shape := ⟨3, ![2048, 32, 256]⟩
abbrev S2048x256 : Shape := ⟨2, ![2048, 256]⟩
abbrev S2048x1x256 : Shape := ⟨3, ![2048, 1, 256]⟩
abbrev S256x1 : Shape := ⟨2, ![256, 1]⟩
abbrev S65536x1 : Shape := ⟨2, ![65536, 1]⟩
abbrev S1x1 : Shape := ⟨2, ![1, 1]⟩
abbrev S2048x32x1 : Shape := ⟨3, ![2048, 32, 1]⟩

abbrev nBuf : Space → Nat
  | .hbm => 130
  | .vmem => 0
  | .smem => 0
  | _ => 0

abbrev hbmTy0_0 (i : Nat) : BufTy := match i % 128 with
  | 0 => ⟨S2048x32x128, .f32⟩
  | 1 => ⟨S2048x32x8, .f32⟩
  | 2 => ⟨S256x128, .f32⟩
  | 3 => ⟨S256, .f32⟩
  | 4 => ⟨S256x256, .f32⟩
  | 5 => ⟨S256, .f32⟩
  | 6 => ⟨S768x256, .f32⟩
  | 7 => ⟨S768, .f32⟩
  | 8 => ⟨S768x256, .f32⟩
  | 9 => ⟨S768, .f32⟩
  | 10 => ⟨S1x256, .f32⟩
  | 11 => ⟨S1, .f32⟩
  | 12 => ⟨S65536x128, .f32⟩
  | 13 => ⟨S128x256, .f32⟩
  | 14 => ⟨S65536x256, .f32⟩
  | 15 => ⟨S1x256, .f32⟩
  | 16 => ⟨S65536x256, .f32⟩
  | 17 => ⟨S65536x256, .f32⟩
  | 18 => ⟨S_, .f32⟩
  | 19 => ⟨S65536x256, .f32⟩
  | 20 => ⟨S65536x256, .f32⟩
  | 21 => ⟨S256x256, .f32⟩
  | 22 => ⟨S65536x256, .f32⟩
  | 23 => ⟨S1x256, .f32⟩
  | 24 => ⟨S65536x256, .f32⟩
  | 25 => ⟨S65536x256, .f32⟩
  | 26 => ⟨S_, .f32⟩
  | 27 => ⟨S65536x256, .f32⟩
  | 28 => ⟨S256x768, .f32⟩
  | 29 => ⟨S65536x768, .f32⟩
  | 30 => ⟨S1x768, .f32⟩
  | 31 => ⟨S65536x768, .f32⟩
  | 32 => ⟨S65536x768, .f32⟩
  | 33 => ⟨S256x768, .f32⟩
  | 34 => ⟨S65536x768, .f32⟩
  | 35 => ⟨S1x768, .f32⟩
  | 36 => ⟨S65536x768, .f32⟩
  | 37 => ⟨S65536x768, .f32⟩
  | 38 => ⟨S65536x256, .f32⟩
  | 39 => ⟨S65536x256, .f32⟩
  | 40 => ⟨S65536x256, .f32⟩
  | 41 => ⟨S65536x256, .f32⟩
  | 42 => ⟨S65536x256, .f32⟩
  | 43 => ⟨S65536x256, .f32⟩
  | 44 => ⟨S65536x256, .f32⟩
  | 45 => ⟨S65536x256, .f32⟩
  | 46 => ⟨S65536x256, .f32⟩
  | 47 => ⟨S_, .f32⟩
  | 48 => ⟨S65536x256, .f32⟩
  | 49 => ⟨S65536x256, .f32⟩
  | 50 => ⟨S_, .f32⟩
  | 51 => ⟨S65536x256, .f32⟩
  | 52 => ⟨S65536x256, .f32⟩
  | 53 => ⟨S65536x256, .f32⟩
  | 54 => ⟨S65536x256, .f32⟩
  | 55 => ⟨S65536x256, .f32⟩
  | 56 => ⟨S_, .f32⟩
  | 57 => ⟨S65536x256, .f32⟩
  | 58 => ⟨S65536x256, .f32⟩
  | 59 => ⟨S_, .f32⟩
  | 60 => ⟨S65536x256, .f32⟩
  | 61 => ⟨S65536x256, .f32⟩
  | 62 => ⟨S65536x256, .f32⟩
  | 63 => ⟨S65536x256, .f32⟩
  | 64 => ⟨S65536x256, .f32⟩
  | 65 => ⟨S_, .f32⟩
  | 66 => ⟨S65536x256, .f32⟩
  | 67 => ⟨S65536x256, .f32⟩
  | 68 => ⟨S65536x256, .f32⟩
  | 69 => ⟨S65536x256, .f32⟩
  | 70 => ⟨S65536x256, .f32⟩
  | 71 => ⟨S2048x32x256, .f32⟩
  | 72 => ⟨S_, .f32⟩
  | 73 => ⟨S2048x256, .f32⟩
  | 74 => ⟨S2048x1x256, .f32⟩
  | 75 => ⟨S2048x32x256, .f32⟩
  | 76 => ⟨S2048x32x256, .f32⟩
  | 77 => ⟨S_, .f32⟩
  | 78 => ⟨S2048x32x256, .f32⟩
  | 79 => ⟨S2048x32x256, .f32⟩
  | 80 => ⟨S65536x256, .f32⟩
  | 81 => ⟨S256x768, .f32⟩
  | 82 => ⟨S65536x768, .f32⟩
  | 83 => ⟨S1x768, .f32⟩
  | 84 => ⟨S65536x768, .f32⟩
  | 85 => ⟨S65536x768, .f32⟩
  | 86 => ⟨S256x768, .f32⟩
  | 87 => ⟨S65536x768, .f32⟩
  | 88 => ⟨S1x768, .f32⟩
  | 89 => ⟨S65536x768, .f32⟩
  | 90 => ⟨S65536x768, .f32⟩
  | 91 => ⟨S65536x256, .f32⟩
  | 92 => ⟨S65536x256, .f32⟩
  | 93 => ⟨S65536x256, .f32⟩
  | 94 => ⟨S65536x256, .f32⟩
  | 95 => ⟨S65536x256, .f32⟩
  | 96 => ⟨S65536x256, .f32⟩
  | 97 => ⟨S65536x256, .f32⟩
  | 98 => ⟨S65536x256, .f32⟩
  | 99 => ⟨S65536x256, .f32⟩
  | 100 => ⟨S_, .f32⟩
  | 101 => ⟨S65536x256, .f32⟩
  | 102 => ⟨S65536x256, .f32⟩
  | 103 => ⟨S_, .f32⟩
  | 104 => ⟨S65536x256, .f32⟩
  | 105 => ⟨S65536x256, .f32⟩
  | 106 => ⟨S65536x256, .f32⟩
  | 107 => ⟨S65536x256, .f32⟩
  | 108 => ⟨S65536x256, .f32⟩
  | 109 => ⟨S_, .f32⟩
  | 110 => ⟨S65536x256, .f32⟩
  | 111 => ⟨S65536x256, .f32⟩
  | 112 => ⟨S_, .f32⟩
  | 113 => ⟨S65536x256, .f32⟩
  | 114 => ⟨S65536x256, .f32⟩
  | 115 => ⟨S65536x256, .f32⟩
  | 116 => ⟨S65536x256, .f32⟩
  | 117 => ⟨S65536x256, .f32⟩
  | 118 => ⟨S_, .f32⟩
  | 119 => ⟨S65536x256, .f32⟩
  | 120 => ⟨S65536x256, .f32⟩
  | 121 => ⟨S65536x256, .f32⟩
  | 122 => ⟨S65536x256, .f32⟩
  | 123 => ⟨S65536x256, .f32⟩
  | 124 => ⟨S256x1, .f32⟩
  | 125 => ⟨S65536x1, .f32⟩
  | 126 => ⟨S1x1, .f32⟩
  | 127 => ⟨S65536x1, .f32⟩
  | _ => ⟨S2048x32x128, .f32⟩

abbrev hbmTy0_1 (i : Nat) : BufTy := match i % 128 with
  | 0 => ⟨S65536x1, .f32⟩
  | 1 => ⟨S2048x32x1, .f32⟩
  | _ => ⟨S2048x32x128, .f32⟩

abbrev hbmTy (i : Nat) : BufTy := match i / 128 with
  | 0 => hbmTy0_0 i
  | 1 => hbmTy0_1 i
  | _ => ⟨S2048x32x128, .f32⟩

abbrev bufTy : (tb : Table) → Fin (tcTables nBuf tb) → BufTy
  | .hbm, ⟨i, _⟩ => hbmTy i
  | _, _ => ⟨S2048x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call0_cst : Ref sig .tc := ⟨.hbm, 18, rfl⟩
abbrev main_call0_v0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_0 : Ref sig .tc := ⟨.hbm, 47, rfl⟩
abbrev main_v32 : Ref sig .tc := ⟨.hbm, 48, rfl⟩
abbrev main_v33 : Ref sig .tc := ⟨.hbm, 49, rfl⟩
abbrev main_cst_1 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_2 : Ref sig .tc := ⟨.hbm, 56, rfl⟩
abbrev main_v39 : Ref sig .tc := ⟨.hbm, 57, rfl⟩
abbrev main_v40 : Ref sig .tc := ⟨.hbm, 58, rfl⟩
abbrev main_cst_3 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_4 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_5 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_6 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_7 : Ref sig .tc := ⟨.hbm, 100, rfl⟩
abbrev main_v78 : Ref sig .tc := ⟨.hbm, 101, rfl⟩
abbrev main_v79 : Ref sig .tc := ⟨.hbm, 102, rfl⟩
abbrev main_cst_8 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_9 : Ref sig .tc := ⟨.hbm, 109, rfl⟩
abbrev main_v85 : Ref sig .tc := ⟨.hbm, 110, rfl⟩
abbrev main_v86 : Ref sig .tc := ⟨.hbm, 111, rfl⟩
abbrev main_cst_10 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_11 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩

abbrev nD : Nat := 1
abbrev τ : Topo := Topo.v7x

variable {F : FTy → Type} [FloatOps F]

class Facts₀ : Prop where
  shapeCasts_S2048x32x128_S65536x128 : S2048x32x128.ShapeCasts S65536x128
  transposes_S256x128_S128x256_1_0 : S256x128.Transposes [1, 0] S128x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  transposes_S256x256_S256x256_1_0 : S256x256.Transposes [1, 0] S256x256
  transposes_S768x256_S256x768_1_0 : S768x256.Transposes [1, 0] S256x768
  bcast_S768_S1x768_1 : S768.BroadcastsInDim S1x768 (![1] : Fin 1 → Fin S1x768.rank)
  bcast_S1x768_S65536x768_0_1 : S1x768.BroadcastsInDim S65536x768 (![0, 1] : Fin 2 → Fin S65536x768.rank)
  slices_S65536x768_S65536x256_0_0 : S65536x768.Slices ![0, 0] S65536x256
  slices_S65536x768_S65536x256_0_256 : S65536x768.Slices ![0, 256] S65536x256
  slices_S65536x768_S65536x256_0_512 : S65536x768.Slices ![0, 512] S65536x256
  shapeCasts_S65536x256_S2048x32x256 : S65536x256.ShapeCasts S2048x32x256
  reducesTo_S2048x32x256_S2048x256_d1 : S2048x32x256.ReducesTo [1] S2048x256
  h_S_ : 0 < S_.numel
  bcast_S2048x256_S2048x1x256_0_2 : S2048x256.BroadcastsInDim S2048x1x256 (![0, 2] : Fin 2 → Fin S2048x1x256.rank)
  bcast_S2048x1x256_S2048x32x256_0_1_2 : S2048x1x256.BroadcastsInDim S2048x32x256 (![0, 1, 2] : Fin 3 → Fin S2048x32x256.rank)
  bcast_S_S2048x32x256 : S_.BroadcastsInDim S2048x32x256 (![] : Fin 0 → Fin S2048x32x256.rank)
  shapeCasts_S2048x32x256_S65536x256 : S2048x32x256.ShapeCasts S65536x256
  transposes_S1x256_S256x1_1_0 : S1x256.Transposes [1, 0] S256x1
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  shapeCasts_S65536x1_S2048x32x1 : S65536x1.ShapeCasts S2048x32x1
  dot_S65536x128_S128x256_S65536x256_1_0_0_1_n_n_wf : DotDims.WF S65536x128 S128x256 S65536x256 [1] [0] [0] [1] [] []
  dot_S65536x256_S256x256_S65536x256_1_0_0_1_n_n_wf : DotDims.WF S65536x256 S256x256 S65536x256 [1] [0] [0] [1] [] []
  dot_S65536x256_S256x768_S65536x768_1_0_0_1_n_n_wf : DotDims.WF S65536x256 S256x768 S65536x768 [1] [0] [0] [1] [] []
  dot_S65536x256_S256x1_S65536x1_1_0_0_1_n_n_wf : DotDims.WF S65536x256 S256x1 S65536x1 [1] [0] [0] [1] [] []

variable [Facts₀]

def dot_S65536x128_S128x256_S65536x256_1_0_0_1_n_n : DotDims S65536x128 S128x256 S65536x256 where
  lhsContracting := [1]
  rhsContracting := [0]
  lhsNonContracting := [0]
  rhsNonContracting := [1]
  lhsBatch := []
  rhsBatch := []
  wf := dot_S65536x128_S128x256_S65536x256_1_0_0_1_n_n_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def dot_S65536x256_S256x768_S65536x768_1_0_0_1_n_n : DotDims S65536x256 S256x768 S65536x768 where
  lhsContracting := [1]
  rhsContracting := [0]
  lhsNonContracting := [0]
  rhsNonContracting := [1]
  lhsBatch := []
  rhsBatch := []
  wf := dot_S65536x256_S256x768_S65536x768_1_0_0_1_n_n_wf
def dot_S65536x256_S256x1_S65536x1_1_0_0_1_n_n : DotDims S65536x256 S256x1 S65536x1 where
  lhsContracting := [1]
  rhsContracting := [0]
  lhsNonContracting := [0]
  rhsNonContracting := [1]
  lhsBatch := []
  rhsBatch := []
  wf := dot_S65536x256_S256x1_S65536x1_1_0_0_1_n_n_wf

class Facts : Prop extends Facts₀ where

variable [Facts]
-- ==== Proof.Consts.lean ====
/-
  What the two programs share: the float literals they spell, as the extended reals they denote; the one law that joins
  the kernel's product with 1/32 to the reference's quotient by 32; the GRU cell on scalars; and the rows and gate columns
  both sides index by (65536 rows = 2048 batches of 32 agents; a block of the kernel holds 1024 rows = 32 batches).
-/
import Idealize.ShloMosaic.PureOps.Ideal

noncomputable section

namespace Cert.AgentGru

open Idealize.ShloMosaic

/-- The literal 1.0 denotes the real 1. -/
theorem ofBits_one : Ideal.ofBits .f32 0x3F800000#32 = 1 := by
  simp [Ideal.ofBits, Ideal.ieee, -EReal.coe_mul]; norm_num

/-- The literal 0.0 denotes 0. -/
theorem ofBits_zero : Ideal.ofBits .f32 0x00000000#32 = 0 := by
  simp [Ideal.ofBits, Ideal.ieee]

/-- The literal 32.0 (the number of agents, the reference's divisor) denotes the real 32. -/
theorem ofBits_32 : Ideal.ofBits .f32 0x42000000#32 = ((32 : ℝ) : EReal) := by
  simp [Ideal.ofBits, Ideal.ieee, -EReal.coe_mul]; norm_num

/-- The literal 0.03125 (the kernel's factor) denotes the real 1/32: it is a power of two, so exactly so. -/
theorem ofBits_inv32 : Ideal.ofBits .f32 0x3D000000#32 = ((1 / 32 : ℝ) : EReal) := by
  simp [Ideal.ofBits, Ideal.ieee, -EReal.coe_mul]; norm_num

/-- On every extended real, dividing by 32 is multiplying by 1/32. -/
theorem div_32 (x : EReal) :
    Ideal.div x (Ideal.ofBits .f32 0x42000000#32) = x * Ideal.ofBits .f32 0x3D000000#32 := by
  rw [ofBits_32, ofBits_inv32, Ideal.div_coe (by norm_num : (32 : ℝ) ≠ 0)]

/-! ## Rows and gate columns -/

/-- Row `32·p + q` of a block of 1024 rows: agent `q` of the block's batch `p`. -/
abbrev brow (p q : Fin 32) : Fin 1024 := ⟨32 * p.val + q.val, by have := p.isLt; have := q.isLt; omega⟩
/-- Row `32·b + a` of all 65536 rows: agent `a` of batch `b`. -/
abbrev grow (b : Fin 2048) (a : Fin 32) : Fin 65536 := ⟨32 * b.val + a.val, by have := b.isLt; have := a.isLt; omega⟩
/-- Row `r` of block `t` among all rows. -/
abbrev trow (t : Fin 64) (r : Fin 1024) : Fin 65536 := ⟨1024 * t.val + r.val, by have := t.isLt; have := r.isLt; omega⟩
/-- Column `j` of the reset gate's third of a gate row. -/
abbrev gcol0 (j : Fin 256) : Fin 768 := ⟨j.val, by have := j.isLt; omega⟩
/-- Column `j` of the update gate's third. -/
abbrev gcol1 (j : Fin 256) : Fin 768 := ⟨256 + j.val, by have := j.isLt; omega⟩
/-- Column `j` of the candidate's third. -/
abbrev gcol2 (j : Fin 256) : Fin 768 := ⟨512 + j.val, by have := j.isLt; omega⟩

/-! ## The GRU cell on scalars -/

/-- One entry of a GRU step from the entry's six gate pre-activations and the previous state:
    r = σ(i_r + h_r), z = σ(i_z + h_z), n = tanh(i_n + r·h_n), result (1 − z)·n + z·h. -/
def gruCell (ir iz inn hr hz hn h : EReal) : EReal :=
  (1 - Ideal.logistic (iz + hz)) * Ideal.tanh (inn + Ideal.logistic (ir + hr) * hn) + Ideal.logistic (iz + hz) * h

end Cert.AgentGru

end
-- ==== Proof.KStages.lean ====
/-
  The pure vector operations of the kernel's body, read at an index on the extended reals.
  A block holds 1024 rows = 32 batches of 32 agents; a row's hidden state has 256 entries and its three
  gate pre-activations sit side by side in a row of 768.
-/
import proofs.«148773_j23081154249051_2_alg».proof.Proof.Gen.KernelIdeal
import proofs.«148773_j23081154249051_2_alg».proof.Proof.Consts
import Idealize.ShloMosaic.Lib.ValueIdx
import Idealize.ShloMosaic.Lib.Pipeline.Value
import Idealize.ShloMosaic.PureOps.Ideal.Laws

noncomputable section

namespace Cert.AgentGru

open Idealize.ShloMosaic Idealize.ShloMosaic.ValueIdx Cert.KernelIdeal Cert.KernelIdeal.Facts₀ Cert.KernelIdeal.Facts

/-! ## Linear layers -/

/-- The encoder layer as the body computes it: both operands narrowed (the identity on extended reals), multiplied
    into a zero accumulator, and the bias row added to every row. -/
def kLinEnc (A : FVec Ideal S1024x128 .f32) (W : FVec Ideal S128x256 .f32) (b : FVec Ideal S1x256 .f32) : FVec Ideal S1024x256 .f32 :=
  addf (matmul dot_S1024x128_S128x256_S1024x256_1_0_0_1_n_n none (truncf .bf16 A bitsLt_bf16_f32) (truncf .bf16 W bitsLt_bf16_f32)
    (constant (F := Ideal) S1024x256 .f32 0x00000000#32)) (broadcastTo S1024x256 b broadcasts_S1x256_S1024x256)

/-- Entry (r, j) of that layer: the row of `A` against column `j` of `W`, plus the bias at `j`. -/
theorem kLinEnc_apply (A : FVec Ideal S1024x128 .f32) (W : FVec Ideal S128x256 .f32) (b : FVec Ideal S1x256 .f32)
    (r : Fin 1024) (j : Fin 256) :
    kLinEnc A W b (ix2 r j) = (∑ k : Fin 128, A (ix2 r k) * W (ix2 k j)) + b (ix2 0 j) := by
  unfold kLinEnc
  rw [addf_apply]
  congr 1
  · refine (Ideal.matmul_constant_zero_apply dot_S1024x128_S128x256_S1024x256_1_0_0_1_n_n none _ _ (ix2 r j)).trans ?_
    rw [← Equiv.sum_comp (contrEquiv1 dot_S1024x128_S128x256_S1024x256_1_0_0_1_n_n 128 rfl rfl).symm]
    refine Finset.sum_congr rfl fun k _ => ?_
    have hk := contrEquiv1_symm_val dot_S1024x128_S128x256_S1024x256_1_0_0_1_n_n 128 rfl rfl k
    rw [truncf_apply, truncf_apply]
    have hl0 : ∀ q : dot_S1024x128_S128x256_S1024x256_1_0_0_1_n_n.contr.Idx, (dot_S1024x128_S128x256_S1024x256_1_0_0_1_n_n.lhsIdx (ix2 r j) q 0).val = r.val := fun q => by
      unfold DotDims.lhsIdx
      rw [dif_neg (show ¬(0 : Fin S1024x128.rank) ∈ dot_S1024x128_S128x256_S1024x256_1_0_0_1_n_n.lhsBatch by decide),
        dif_pos (show (0 : Fin S1024x128.rank) ∈ dot_S1024x128_S128x256_S1024x256_1_0_0_1_n_n.lhsNonContracting by decide)]
      rfl
    have hr1 : ∀ q : dot_S1024x128_S128x256_S1024x256_1_0_0_1_n_n.contr.Idx, (dot_S1024x128_S128x256_S1024x256_1_0_0_1_n_n.rhsIdx (ix2 r j) q 1).val = j.val := fun q => by
      unfold DotDims.rhsIdx
      rw [dif_neg (show ¬(1 : Fin S128x256.rank) ∈ dot_S1024x128_S128x256_S1024x256_1_0_0_1_n_n.rhsBatch by decide),
        dif_pos (show (1 : Fin S128x256.rank) ∈ dot_S1024x128_S128x256_S1024x256_1_0_0_1_n_n.rhsNonContracting by decide)]
      rfl
    have el : dot_S1024x128_S128x256_S1024x256_1_0_0_1_n_n.lhsIdx (ix2 r j) ((contrEquiv1 dot_S1024x128_S128x256_S1024x256_1_0_0_1_n_n 128 rfl rfl).symm k) = ix2 r k :=
      funext fun a => Fin.ext (by
        match a with
        | ⟨0, _⟩ => exact hl0 _
        | ⟨1, _⟩ => exact (dot_S1024x128_S128x256_S1024x256_1_0_0_1_n_n.lhsIdx_val_of_single rfl _ _).trans hk)
    have er : dot_S1024x128_S128x256_S1024x256_1_0_0_1_n_n.rhsIdx (ix2 r j) ((contrEquiv1 dot_S1024x128_S128x256_S1024x256_1_0_0_1_n_n 128 rfl rfl).symm k) = ix2 k j :=
      funext fun a => Fin.ext (by
        match a with
        | ⟨0, _⟩ => exact (dot_S1024x128_S128x256_S1024x256_1_0_0_1_n_n.rhsIdx_val_of_single rfl _ _).trans hk
        | ⟨1, _⟩ => exact hr1 _)
    rw [el, er]
  · exact broadcastTo_apply b broadcasts_S1x256_S1024x256 (ix2 r j) (ix2 0 j) (fun a => match a with
      | ⟨0, _⟩ => by show (0 : Nat) = if (1 : Nat) = 1 then 0 else r.val; rw [if_pos rfl]
      | ⟨1, _⟩ => by show j.val = if (256 : Nat) = 1 then 0 else j.val; rw [if_neg (by decide)])

/-- The hidden layer as the body computes it: both operands narrowed (the identity on extended reals), multiplied
    into a zero accumulator, and the bias row added to every row. -/
def kLinHid (A : FVec Ideal S1024x256 .f32) (W : FVec Ideal S256x256 .f32) (b : FVec Ideal S1x256 .f32) : FVec Ideal S1024x256 .f32 :=
  addf (matmul dot_S1024x256_S256x256_S1024x256_1_0_0_1_n_n none (truncf .bf16 A bitsLt_bf16_f32) (truncf .bf16 W bitsLt_bf16_f32)
    (constant (F := Ideal) S1024x256 .f32 0x00000000#32)) (broadcastTo S1024x256 b broadcasts_S1x256_S1024x256)

/-- Entry (r, j) of that layer: the row of `A` against column `j` of `W`, plus the bias at `j`. -/
theorem kLinHid_apply (A : FVec Ideal S1024x256 .f32) (W : FVec Ideal S256x256 .f32) (b : FVec Ideal S1x256 .f32)
    (r : Fin 1024) (j : Fin 256) :
    kLinHid A W b (ix2 r j) = (∑ k : Fin 256, A (ix2 r k) * W (ix2 k j)) + b (ix2 0 j) := by
  unfold kLinHid
  rw [addf_apply]
  congr 1
  · refine (Ideal.matmul_constant_zero_apply dot_S1024x256_S256x256_S1024x256_1_0_0_1_n_n none _ _ (ix2 r j)).trans ?_
    rw [← Equiv.sum_comp (contrEquiv1 dot_S1024x256_S256x256_S1024x256_1_0_0_1_n_n 256 rfl rfl).symm]
    refine Finset.sum_congr rfl fun k _ => ?_
    have hk := contrEquiv1_symm_val dot_S1024x256_S256x256_S1024x256_1_0_0_1_n_n 256 rfl rfl k
    rw [truncf_apply, truncf_apply]
    have hl0 : ∀ q : dot_S1024x256_S256x256_S1024x256_1_0_0_1_n_n.contr.Idx, (dot_S1024x256_S256x256_S1024x256_1_0_0_1_n_n.lhsIdx (ix2 r j) q 0).val = r.val := fun q => by
      unfold DotDims.lhsIdx
      rw [dif_neg (show ¬(0 : Fin S1024x256.rank) ∈ dot_S1024x256_S256x256_S1024x256_1_0_0_1_n_n.lhsBatch by decide),
        dif_pos (show (0 : Fin S1024x256.rank) ∈ dot_S1024x256_S256x256_S1024x256_1_0_0_1_n_n.lhsNonContracting by decide)]
      rfl
    have hr1 : ∀ q : dot_S1024x256_S256x256_S1024x256_1_0_0_1_n_n.contr.Idx, (dot_S1024x256_S256x256_S1024x256_1_0_0_1_n_n.rhsIdx (ix2 r j) q 1).val = j.val := fun q => by
      unfold DotDims.rhsIdx
      rw [dif_neg (show ¬(1 : Fin S256x256.rank) ∈ dot_S1024x256_S256x256_S1024x256_1_0_0_1_n_n.rhsBatch by decide),
        dif_pos (show (1 : Fin S256x256.rank) ∈ dot_S1024x256_S256x256_S1024x256_1_0_0_1_n_n.rhsNonContracting by decide)]
      rfl
    have el : dot_S1024x256_S256x256_S1024x256_1_0_0_1_n_n.lhsIdx (ix2 r j) ((contrEquiv1 dot_S1024x256_S256x256_S1024x256_1_0_0_1_n_n 256 rfl rfl).symm k) = ix2 r k :=
      funext fun a => Fin.ext (by
        match a with
        | ⟨0, _⟩ => exact hl0 _
        | ⟨1, _⟩ => exact (dot_S1024x256_S256x256_S1024x256_1_0_0_1_n_n.lhsIdx_val_of_single rfl _ _).trans hk)
    have er : dot_S1024x256_S256x256_S1024x256_1_0_0_1_n_n.rhsIdx (ix2 r j) ((contrEquiv1 dot_S1024x256_S256x256_S1024x256_1_0_0_1_n_n 256 rfl rfl).symm k) = ix2 k j :=
      funext fun a => Fin.ext (by
        match a with
        | ⟨0, _⟩ => exact (dot_S1024x256_S256x256_S1024x256_1_0_0_1_n_n.rhsIdx_val_of_single rfl _ _).trans hk
        | ⟨1, _⟩ => exact hr1 _)
    rw [el, er]
  · exact broadcastTo_apply b broadcasts_S1x256_S1024x256 (ix2 r j) (ix2 0 j) (fun a => match a with
      | ⟨0, _⟩ => by show (0 : Nat) = if (1 : Nat) = 1 then 0 else r.val; rw [if_pos rfl]
      | ⟨1, _⟩ => by show j.val = if (256 : Nat) = 1 then 0 else j.val; rw [if_neg (by decide)])

/-- The gate layer as the body computes it: both operands narrowed (the identity on extended reals), multiplied
    into a zero accumulator, and the bias row added to every row. -/
def kLinGate (A : FVec Ideal S1024x256 .f32) (W : FVec Ideal S256x768 .f32) (b : FVec Ideal S1x768 .f32) : FVec Ideal S1024x768 .f32 :=
  addf (matmul dot_S1024x256_S256x768_S1024x768_1_0_0_1_n_n none (truncf .bf16 A bitsLt_bf16_f32) (truncf .bf16 W bitsLt_bf16_f32)
    (constant (F := Ideal) S1024x768 .f32 0x00000000#32)) (broadcastTo S1024x768 b broadcasts_S1x768_S1024x768)

/-- Entry (r, j) of that layer: the row of `A` against column `j` of `W`, plus the bias at `j`. -/
theorem kLinGate_apply (A : FVec Ideal S1024x256 .f32) (W : FVec Ideal S256x768 .f32) (b : FVec Ideal S1x768 .f32)
    (r : Fin 1024) (j : Fin 768) :
    kLinGate A W b (ix2 r j) = (∑ k : Fin 256, A (ix2 r k) * W (ix2 k j)) + b (ix2 0 j) := by
  unfold kLinGate
  rw [addf_apply]
  congr 1
  · refine (Ideal.matmul_constant_zero_apply dot_S1024x256_S256x768_S1024x768_1_0_0_1_n_n none _ _ (ix2 r j)).trans ?_
    rw [← Equiv.sum_comp (contrEquiv1 dot_S1024x256_S256x768_S1024x768_1_0_0_1_n_n 256 rfl rfl).symm]
    refine Finset.sum_congr rfl fun k _ => ?_
    have hk := contrEquiv1_symm_val dot_S1024x256_S256x768_S1024x768_1_0_0_1_n_n 256 rfl rfl k
    rw [truncf_apply, truncf_apply]
    have hl0 : ∀ q : dot_S1024x256_S256x768_S1024x768_1_0_0_1_n_n.contr.Idx, (dot_S1024x256_S256x768_S1024x768_1_0_0_1_n_n.lhsIdx (ix2 r j) q 0).val = r.val := fun q => by
      unfold DotDims.lhsIdx
      rw [dif_neg (show ¬(0 : Fin S1024x256.rank) ∈ dot_S1024x256_S256x768_S1024x768_1_0_0_1_n_n.lhsBatch by decide),
        dif_pos (show (0 : Fin S1024x256.rank) ∈ dot_S1024x256_S256x768_S1024x768_1_0_0_1_n_n.lhsNonContracting by decide)]
      rfl
    have hr1 : ∀ q : dot_S1024x256_S256x768_S1024x768_1_0_0_1_n_n.contr.Idx, (dot_S1024x256_S256x768_S1024x768_1_0_0_1_n_n.rhsIdx (ix2 r j) q 1).val = j.val := fun q => by
      unfold DotDims.rhsIdx
      rw [dif_neg (show ¬(1 : Fin S256x768.rank) ∈ dot_S1024x256_S256x768_S1024x768_1_0_0_1_n_n.rhsBatch by decide),
        dif_pos (show (1 : Fin S256x768.rank) ∈ dot_S1024x256_S256x768_S1024x768_1_0_0_1_n_n.rhsNonContracting by decide)]
      rfl
    have el : dot_S1024x256_S256x768_S1024x768_1_0_0_1_n_n.lhsIdx (ix2 r j) ((contrEquiv1 dot_S1024x256_S256x768_S1024x768_1_0_0_1_n_n 256 rfl rfl).symm k) = ix2 r k :=
      funext fun a => Fin.ext (by
        match a with
        | ⟨0, _⟩ => exact hl0 _
        | ⟨1, _⟩ => exact (dot_S1024x256_S256x768_S1024x768_1_0_0_1_n_n.lhsIdx_val_of_single rfl _ _).trans hk)
    have er : dot_S1024x256_S256x768_S1024x768_1_0_0_1_n_n.rhsIdx (ix2 r j) ((contrEquiv1 dot_S1024x256_S256x768_S1024x768_1_0_0_1_n_n 256 rfl rfl).symm k) = ix2 k j :=
      funext fun a => Fin.ext (by
        match a with
        | ⟨0, _⟩ => exact (dot_S1024x256_S256x768_S1024x768_1_0_0_1_n_n.rhsIdx_val_of_single rfl _ _).trans hk
        | ⟨1, _⟩ => exact hr1 _)
    rw [el, er]
  · exact broadcastTo_apply b broadcasts_S1x768_S1024x768 (ix2 r j) (ix2 0 j) (fun a => match a with
      | ⟨0, _⟩ => by show (0 : Nat) = if (1 : Nat) = 1 then 0 else r.val; rw [if_pos rfl]
      | ⟨1, _⟩ => by show j.val = if (768 : Nat) = 1 then 0 else j.val; rw [if_neg (by decide)])

/-- The decoder layer as the body computes it: both operands narrowed (the identity on extended reals), multiplied
    into a zero accumulator, and the bias row added to every row. -/
def kLinDec (A : FVec Ideal S1024x256 .f32) (W : FVec Ideal S256x1 .f32) (b : FVec Ideal S1x1 .f32) : FVec Ideal S1024x1 .f32 :=
  addf (matmul dot_S1024x256_S256x1_S1024x1_1_0_0_1_n_n none (truncf .bf16 A bitsLt_bf16_f32) (truncf .bf16 W bitsLt_bf16_f32)
    (constant (F := Ideal) S1024x1 .f32 0x00000000#32)) (broadcastTo S1024x1 b broadcasts_S1x1_S1024x1)

/-- Entry (r, j) of that layer: the row of `A` against column `j` of `W`, plus the bias at `j`. -/
theorem kLinDec_apply (A : FVec Ideal S1024x256 .f32) (W : FVec Ideal S256x1 .f32) (b : FVec Ideal S1x1 .f32)
    (r : Fin 1024) (j : Fin 1) :
    kLinDec A W b (ix2 r j) = (∑ k : Fin 256, A (ix2 r k) * W (ix2 k j)) + b (ix2 0 j) := by
  unfold kLinDec
  rw [addf_apply]
  congr 1
  · refine (Ideal.matmul_constant_zero_apply dot_S1024x256_S256x1_S1024x1_1_0_0_1_n_n none _ _ (ix2 r j)).trans ?_
    rw [← Equiv.sum_comp (contrEquiv1 dot_S1024x256_S256x1_S1024x1_1_0_0_1_n_n 256 rfl rfl).symm]
    refine Finset.sum_congr rfl fun k _ => ?_
    have hk := contrEquiv1_symm_val dot_S1024x256_S256x1_S1024x1_1_0_0_1_n_n 256 rfl rfl k
    rw [truncf_apply, truncf_apply]
    have hl0 : ∀ q : dot_S1024x256_S256x1_S1024x1_1_0_0_1_n_n.contr.Idx, (dot_S1024x256_S256x1_S1024x1_1_0_0_1_n_n.lhsIdx (ix2 r j) q 0).val = r.val := fun q => by
      unfold DotDims.lhsIdx
      rw [dif_neg (show ¬(0 : Fin S1024x256.rank) ∈ dot_S1024x256_S256x1_S1024x1_1_0_0_1_n_n.lhsBatch by decide),
        dif_pos (show (0 : Fin S1024x256.rank) ∈ dot_S1024x256_S256x1_S1024x1_1_0_0_1_n_n.lhsNonContracting by decide)]
      rfl
    have hr1 : ∀ q : dot_S1024x256_S256x1_S1024x1_1_0_0_1_n_n.contr.Idx, (dot_S1024x256_S256x1_S1024x1_1_0_0_1_n_n.rhsIdx (ix2 r j) q 1).val = j.val := fun q => by
      unfold DotDims.rhsIdx
      rw [dif_neg (show ¬(1 : Fin S256x1.rank) ∈ dot_S1024x256_S256x1_S1024x1_1_0_0_1_n_n.rhsBatch by decide),
        dif_pos (show (1 : Fin S256x1.rank) ∈ dot_S1024x256_S256x1_S1024x1_1_0_0_1_n_n.rhsNonContracting by decide)]
      rfl
    have el : dot_S1024x256_S256x1_S1024x1_1_0_0_1_n_n.lhsIdx (ix2 r j) ((contrEquiv1 dot_S1024x256_S256x1_S1024x1_1_0_0_1_n_n 256 rfl rfl).symm k) = ix2 r k :=
      funext fun a => Fin.ext (by
        match a with
        | ⟨0, _⟩ => exact hl0 _
        | ⟨1, _⟩ => exact (dot_S1024x256_S256x1_S1024x1_1_0_0_1_n_n.lhsIdx_val_of_single rfl _ _).trans hk)
    have er : dot_S1024x256_S256x1_S1024x1_1_0_0_1_n_n.rhsIdx (ix2 r j) ((contrEquiv1 dot_S1024x256_S256x1_S1024x1_1_0_0_1_n_n 256 rfl rfl).symm k) = ix2 k j :=
      funext fun a => Fin.ext (by
        match a with
        | ⟨0, _⟩ => exact (dot_S1024x256_S256x1_S1024x1_1_0_0_1_n_n.rhsIdx_val_of_single rfl _ _).trans hk
        | ⟨1, _⟩ => exact hr1 _)
    rw [el, er]
  · exact broadcastTo_apply b broadcasts_S1x1_S1024x1 (ix2 r j) (ix2 0 j) (fun a => match a with
      | ⟨0, _⟩ => by show (0 : Nat) = if (1 : Nat) = 1 then 0 else r.val; rw [if_pos rfl]
      | ⟨1, _⟩ => by show j.val = if (1 : Nat) = 1 then 0 else j.val; rw [if_pos rfl]; omega)

/-! ## The rectifier, and a bias as gate rows -/

/-- The encoder's output after the rectifier. -/
def kEnc (x : FVec Ideal S1024x128 .f32) (W : FVec Ideal S128x256 .f32) (b : FVec Ideal S1x256 .f32) : FVec Ideal S1024x256 .f32 :=
  maximumf (kLinEnc x W b) (broadcast S1024x256 (Scalar.ofBits (F := Ideal) .f32 0x00000000#32))

theorem kEnc_apply (x : FVec Ideal S1024x128 .f32) (W : FVec Ideal S128x256 .f32) (b : FVec Ideal S1x256 .f32)
    (r : Fin 1024) (l : Fin 256) :
    kEnc x W b (ix2 r l)
      = max ((∑ k : Fin 128, x (ix2 r k) * W (ix2 k l)) + b (ix2 0 l)) (Ideal.ofBits .f32 0x00000000#32) := by
  show max (kLinEnc x W b (ix2 r l)) (Ideal.ofBits .f32 0x00000000#32) = _
  rw [kLinEnc_apply]

/-- The gate rows of a zero input: the input bias in every row. -/
def kBias (b : FVec Ideal S1x768 .f32) : FVec Ideal S1024x768 .f32 := broadcastTo S1024x768 b broadcasts_S1x768_S1024x768

theorem kBias_apply (b : FVec Ideal S1x768 .f32) (r : Fin 1024) (g : Fin 768) : kBias b (ix2 r g) = b (ix2 0 g) :=
  broadcastTo_apply b broadcasts_S1x768_S1024x768 (ix2 r g) (ix2 0 g) (fun a => match a with
    | ⟨0, _⟩ => by show (0 : Nat) = if (1 : Nat) = 1 then 0 else r.val; rw [if_pos rfl]
    | ⟨1, _⟩ => by show g.val = if (768 : Nat) = 1 then 0 else g.val; rw [if_neg (by decide)])

/-! ## The gates -/

/-- The reset third of a block of gate rows. -/
def sl0 (x : FVec Ideal S1024x768 .f32) : FVec Ideal S1024x256 .f32 :=
  extractStridedSlice S1024x256 ![0, 0] x slices_S1024x768_o0_0_S1024x256
/-- The update third. -/
def sl1 (x : FVec Ideal S1024x768 .f32) : FVec Ideal S1024x256 .f32 :=
  extractStridedSlice S1024x256 ![0, 256] x slices_S1024x768_o0_256_S1024x256
/-- The candidate third. -/
def sl2 (x : FVec Ideal S1024x768 .f32) : FVec Ideal S1024x256 .f32 :=
  extractStridedSlice S1024x256 ![0, 512] x slices_S1024x768_o0_512_S1024x256

theorem sl0_apply (x : FVec Ideal S1024x768 .f32) (r : Fin 1024) (j : Fin 256) : sl0 x (ix2 r j) = x (ix2 r (gcol0 j)) :=
  extractStridedSlice_apply ![0, 0] x slices_S1024x768_o0_0_S1024x256 (ix2 r j) (ix2 r (gcol0 j)) (fun a => match a with
    | ⟨0, _⟩ => by show r.val = 0 + r.val; omega
    | ⟨1, _⟩ => by show j.val = 0 + j.val; omega)
theorem sl1_apply (x : FVec Ideal S1024x768 .f32) (r : Fin 1024) (j : Fin 256) : sl1 x (ix2 r j) = x (ix2 r (gcol1 j)) :=
  extractStridedSlice_apply ![0, 256] x slices_S1024x768_o0_256_S1024x256 (ix2 r j) (ix2 r (gcol1 j)) (fun a => match a with
    | ⟨0, _⟩ => by show r.val = 0 + r.val; omega
    | ⟨1, _⟩ => by show 256 + j.val = 256 + j.val; rfl)
theorem sl2_apply (x : FVec Ideal S1024x768 .f32) (r : Fin 1024) (j : Fin 256) : sl2 x (ix2 r j) = x (ix2 r (gcol2 j)) :=
  extractStridedSlice_apply ![0, 512] x slices_S1024x768_o0_512_S1024x256 (ix2 r j) (ix2 r (gcol2 j)) (fun a => match a with
    | ⟨0, _⟩ => by show r.val = 0 + r.val; omega
    | ⟨1, _⟩ => by show 512 + j.val = 512 + j.val; rfl)

/-- A GRU step on a block: `gi` the input's gate rows, `gh` the state's, `h` the state. -/
def kGru (gi gh : FVec Ideal S1024x768 .f32) (h : FVec Ideal S1024x256 .f32) : FVec Ideal S1024x256 .f32 :=
  addf (mulf (subf (broadcast S1024x256 (Scalar.ofBits (F := Ideal) .f32 0x3F800000#32)) (logistic (addf (sl1 gi) (sl1 gh))))
      (tanh (addf (sl2 gi) (mulf (logistic (addf (sl0 gi) (sl0 gh))) (sl2 gh)))))
    (mulf (logistic (addf (sl1 gi) (sl1 gh))) h)

/-- Entry (r, j) of the step is the scalar cell at the six gate entries of row `r` that belong to unit `j`. -/
theorem kGru_apply (gi gh : FVec Ideal S1024x768 .f32) (h : FVec Ideal S1024x256 .f32) (r : Fin 1024) (j : Fin 256) :
    kGru gi gh h (ix2 r j) = gruCell (gi (ix2 r (gcol0 j))) (gi (ix2 r (gcol1 j))) (gi (ix2 r (gcol2 j)))
      (gh (ix2 r (gcol0 j))) (gh (ix2 r (gcol1 j))) (gh (ix2 r (gcol2 j))) (h (ix2 r j)) := by
  show (Ideal.ofBits .f32 0x3F800000#32 - Ideal.logistic (sl1 gi (ix2 r j) + sl1 gh (ix2 r j)))
        * Ideal.tanh (sl2 gi (ix2 r j) + Ideal.logistic (sl0 gi (ix2 r j) + sl0 gh (ix2 r j)) * sl2 gh (ix2 r j))
      + Ideal.logistic (sl1 gi (ix2 r j) + sl1 gh (ix2 r j)) * h (ix2 r j) = _
  rw [sl0_apply, sl0_apply, sl1_apply, sl1_apply, sl2_apply, sl2_apply, ofBits_one]
  rfl

/-! ## The mean over the other agents -/

/-- What an agent hears: the block regrouped as 32 batches of 32 agents, each batch summed over its agents, the
    agent's own state taken out, and the rest scaled by 1/32. -/
def kMix (h1 : FVec Ideal S1024x256 .f32) : FVec Ideal S1024x256 .f32 :=
  shapeCast S1024x256
    (mulf (subf (broadcastTo S32x32x256
          (shapeCast S32x1x256
            (multiReduction .add [1] S32x256 (shapeCast S32x32x256 h1 shapeCasts_S1024x256_S32x32x256) 0x00000000#32
              reduces_S32x32x256_S32x256 (.inl rfl) rfl)
            shapeCasts_S32x256_S32x1x256)
          broadcasts_S32x1x256_S32x32x256)
        (shapeCast S32x32x256 h1 shapeCasts_S1024x256_S32x32x256))
      (broadcast S32x32x256 (Scalar.ofBits (F := Ideal) .f32 0x3D000000#32)))
    shapeCasts_S32x32x256_S1024x256

/-- A block regrouped by batch, read at (batch, agent, unit). -/
theorem regroup_apply (h1 : FVec Ideal S1024x256 .f32) (p q : Fin 32) (j : Fin 256) :
    shapeCast S32x32x256 h1 shapeCasts_S1024x256_S32x32x256 (ix3 p q j) = h1 (ix2 (brow p q) j) :=
  shapeCast_apply h1 shapeCasts_S1024x256_S32x32x256 (ix3 p q j) (ix2 (brow p q) j)
    (by rewrite [Shape.rowMajor_val_two, Shape.rowMajor_val_three]
        show (32 * p.val + q.val) * 256 + j.val = (p.val * 32 + q.val) * 256 + j.val; omega)

/-- Entry (32·p + q, j) of what agent `q` of batch `p` hears: the batch's sum less the agent's own entry, times 1/32. -/
theorem kMix_apply (h1 : FVec Ideal S1024x256 .f32) (p q : Fin 32) (j : Fin 256) :
    kMix h1 (ix2 (brow p q) j)
      = ((∑ a : Fin 32, h1 (ix2 (brow p a) j)) - h1 (ix2 (brow p q) j)) * Ideal.ofBits .f32 0x3D000000#32 := by
  unfold kMix
  rw [shapeCast_apply _ shapeCasts_S32x32x256_S1024x256 (ix2 (brow p q) j) (ix3 p q j)
    (by rewrite [Shape.rowMajor_val_two, Shape.rowMajor_val_three]
        show (p.val * 32 + q.val) * 256 + j.val = (32 * p.val + q.val) * 256 + j.val; omega)]
  rw [mulf_apply, subf_apply, broadcast_apply, regroup_apply]
  rw [broadcastTo_apply _ broadcasts_S32x1x256_S32x32x256 (ix3 p q j) (ix3 p (0 : Fin 1) j) (fun a => match a with
    | ⟨0, _⟩ => by show p.val = if (32 : Nat) = 1 then 0 else p.val; rw [if_neg (by decide)]
    | ⟨1, _⟩ => by show (0 : Nat) = if (1 : Nat) = 1 then 0 else q.val; rw [if_pos rfl]
    | ⟨2, _⟩ => by show j.val = if (256 : Nat) = 1 then 0 else j.val; rw [if_neg (by decide)])]
  rw [shapeCast_apply _ shapeCasts_S32x256_S32x1x256 (ix3 p (0 : Fin 1) j) (ix2 p j)
    (by rewrite [Shape.rowMajor_val_two, Shape.rowMajor_val_three]
        show p.val * 256 + j.val = (p.val * 1 + 0) * 256 + j.val; omega)]
  congr 2
  refine (Ideal.multiReduction_add_single _ 0x00000000#32 reduces_S32x32x256_S32x256 (.inl rfl) rfl (ix2 p j)).trans ?_
  refine Finset.sum_congr rfl fun a _ => ?_
  exact (congrArg _ (funext fun d => Fin.ext (by match d with | ⟨0, _⟩ => rfl | ⟨1, _⟩ => rfl | ⟨2, _⟩ => rfl))).trans
    (regroup_apply h1 p a j)

/-! ## The body's stages composed -/

section Body
variable (x0 : FVec Ideal S1024x128 .f32) (x1 : FVec Ideal S128x256 .f32) (x2 : FVec Ideal S1x256 .f32)
  (x3 : FVec Ideal S256x256 .f32) (x4 : FVec Ideal S1x256 .f32) (x5 : FVec Ideal S256x768 .f32) (x6 : FVec Ideal S1x768 .f32)
  (x7 : FVec Ideal S256x768 .f32) (x8 : FVec Ideal S1x768 .f32) (x9 : FVec Ideal S256x1 .f32) (x10 : FVec Ideal S1x1 .f32)

/-- The hidden state of a block of rows. -/
def kH0 : FVec Ideal S1024x256 .f32 := kLinHid (kEnc x0 x1 x2) x3 x4
/-- The state after the first step (zero input). -/
def kH1 : FVec Ideal S1024x256 .f32 := kGru (kBias x6) (kLinGate (kH0 x0 x1 x2 x3 x4) x7 x8) (kH0 x0 x1 x2 x3 x4)
/-- The state after the second step (the input is what each agent hears). -/
def kH2 : FVec Ideal S1024x256 .f32 :=
  kGru (kLinGate (kMix (kH1 x0 x1 x2 x3 x4 x6 x7 x8)) x5 x6) (kLinGate (kH1 x0 x1 x2 x3 x4 x6 x7 x8) x7 x8)
    (kH1 x0 x1 x2 x3 x4 x6 x7 x8)
/-- The block's decoded outputs. -/
def kOut : FVec Ideal S1024x1 .f32 := kLinDec (kH2 x0 x1 x2 x3 x4 x5 x6 x7 x8) x9 x10
end Body

end Cert.AgentGru

end
-- ==== Proof.RStages.lean ====
/-
  The reference's stages (its generated read-at-an-index lemmas chained) in the form the kernel's stages take: a linear
  layer as a row against a column plus a bias, a GRU step as the scalar cell at a row's gate entries, what an agent
  hears as its batch's sum less its own state, scaled.
-/
import proofs.«148773_j23081154249051_2_alg».proof.Proof.Gen.ReferenceIdeal.Read
import proofs.«148773_j23081154249051_2_alg».proof.Proof.Consts

noncomputable section

namespace Cert.AgentGru

open Idealize.ShloMosaic Idealize.ShloMosaic.ValueIdx Cert.ReferenceIdeal Cert.ReferenceIdeal.Read

variable (A0 : (⟨S2048x32x128, .f32⟩ : BufTy).Contents (Elt Ideal)) (A2 : (⟨S256x128, .f32⟩ : BufTy).Contents (Elt Ideal))
  (A3 : (⟨S256, .f32⟩ : BufTy).Contents (Elt Ideal)) (A4 : (⟨S256x256, .f32⟩ : BufTy).Contents (Elt Ideal))
  (A5 : (⟨S256, .f32⟩ : BufTy).Contents (Elt Ideal)) (A6 : (⟨S768x256, .f32⟩ : BufTy).Contents (Elt Ideal))
  (A7 : (⟨S768, .f32⟩ : BufTy).Contents (Elt Ideal)) (A8 : (⟨S768x256, .f32⟩ : BufTy).Contents (Elt Ideal))
  (A9 : (⟨S768, .f32⟩ : BufTy).Contents (Elt Ideal)) (A10 : (⟨S1x256, .f32⟩ : BufTy).Contents (Elt Ideal))
  (A11 : (⟨S1, .f32⟩ : BufTy).Contents (Elt Ideal))

/-! ## Encoder and hidden layer -/

/-- The encoder's output after the rectifier, at (row, unit). -/
theorem rEnc_apply (n : Fin 65536) (l : Fin 256) :
    val_main_v6 (F := Ideal) A0 A2 A3 (ix2 n l)
      = max ((∑ k : Fin 128, val_main_v0 (F := Ideal) A0 (ix2 n k) * val_main_v1 (F := Ideal) A2 (ix2 k l)) + A3 (ix1 l)) (Ideal.ofBits .f32 0x00000000#32) := by
  rw [val_main_v6_apply, val_main_v5_apply, val_main_v2_apply, val_main_v4_apply, val_main_v3_apply]
  have el : ∀ k : Fin 128, lidx_main_v2 (ix2 n l) k = ix2 n k := fun k => funext fun d => Fin.ext (by match d with | ⟨0, _⟩ => rfl | ⟨1, _⟩ => rfl)
  have er : ∀ k : Fin 128, ridx_main_v2 (ix2 n l) k = ix2 k l := fun k => funext fun d => Fin.ext (by match d with | ⟨0, _⟩ => rfl | ⟨1, _⟩ => rfl)
  have eb : idx_main_v3 (idx_main_v4 (ix2 n l)) = ix1 l :=
    funext fun d => Fin.ext (by match d with | ⟨0, _⟩ => rfl)
  simp only [el, er, eb]
  rfl

/-- The hidden layer at (row, unit). -/
theorem rHid_apply (n : Fin 65536) (j : Fin 256) :
    val_main_v11 (F := Ideal) A0 A2 A3 A4 A5 (ix2 n j)
      = (∑ k : Fin 256, val_main_v6 (F := Ideal) A0 A2 A3 (ix2 n k) * val_main_v7 (F := Ideal) A4 (ix2 k j)) + A5 (ix1 j) := by
  rw [val_main_v11_apply, val_main_v8_apply, val_main_v10_apply, val_main_v9_apply]
  have el : ∀ k : Fin 256, lidx_main_v8 (ix2 n j) k = ix2 n k := fun k => funext fun d => Fin.ext (by match d with | ⟨0, _⟩ => rfl | ⟨1, _⟩ => rfl)
  have er : ∀ k : Fin 256, ridx_main_v8 (ix2 n j) k = ix2 k j := fun k => funext fun d => Fin.ext (by match d with | ⟨0, _⟩ => rfl | ⟨1, _⟩ => rfl)
  have eb : idx_main_v9 (idx_main_v10 (ix2 n j)) = ix1 j :=
    funext fun d => Fin.ext (by match d with | ⟨0, _⟩ => rfl)
  simp only [el, er, eb]
  rfl

/-! ## The first GRU step: the input is zero, so its gate rows are the input bias -/

/-- A zero input contributes nothing to the gates: every product with the zero entry vanishes, on all extended reals. -/
theorem rGi1_apply (n : Fin 65536) (g : Fin 768) : val_main_v17 (F := Ideal) A6 A7 (ix2 n g) = A7 (ix1 g) := by
  rw [val_main_v17_apply, val_main_v14_apply, val_main_v16_apply, val_main_v15_apply]
  have z : ∀ i, val_main_v12 (F := Ideal) i = 0 := fun i => (val_main_v12_apply (F := Ideal) i).trans ofBits_zero
  have eb : idx_main_v15 (idx_main_v16 (ix2 n g)) = ix1 g :=
    funext fun d => Fin.ext (by match d with | ⟨0, _⟩ => rfl)
  simp only [z, zero_mul, Finset.sum_const_zero, eb]
  exact zero_add _

/-- The state's gate rows in the first step. -/
theorem rGh1_apply (n : Fin 65536) (j : Fin 768) :
    val_main_v22 (F := Ideal) A0 A2 A3 A4 A5 A8 A9 (ix2 n j)
      = (∑ k : Fin 256, val_main_v11 (F := Ideal) A0 A2 A3 A4 A5 (ix2 n k) * val_main_v18 (F := Ideal) A8 (ix2 k j)) + A9 (ix1 j) := by
  rw [val_main_v22_apply, val_main_v19_apply, val_main_v21_apply, val_main_v20_apply]
  have el : ∀ k : Fin 256, lidx_main_v19 (ix2 n j) k = ix2 n k := fun k => funext fun d => Fin.ext (by match d with | ⟨0, _⟩ => rfl | ⟨1, _⟩ => rfl)
  have er : ∀ k : Fin 256, ridx_main_v19 (ix2 n j) k = ix2 k j := fun k => funext fun d => Fin.ext (by match d with | ⟨0, _⟩ => rfl | ⟨1, _⟩ => rfl)
  have eb : idx_main_v20 (idx_main_v21 (ix2 n j)) = ix1 j :=
    funext fun d => Fin.ext (by match d with | ⟨0, _⟩ => rfl)
  simp only [el, er, eb]
  rfl

/-- The state after the first step, at (row, unit). -/
theorem rH1_apply (n : Fin 65536) (j : Fin 256) :
    val_main_v50 (F := Ideal) A0 A2 A3 A4 A5 A6 A7 A8 A9 (ix2 n j)
      = gruCell (val_main_v17 (F := Ideal) A6 A7 (ix2 n (gcol0 j))) (val_main_v17 (F := Ideal) A6 A7 (ix2 n (gcol1 j))) (val_main_v17 (F := Ideal) A6 A7 (ix2 n (gcol2 j)))
          (val_main_v22 (F := Ideal) A0 A2 A3 A4 A5 A8 A9 (ix2 n (gcol0 j))) (val_main_v22 (F := Ideal) A0 A2 A3 A4 A5 A8 A9 (ix2 n (gcol1 j))) (val_main_v22 (F := Ideal) A0 A2 A3 A4 A5 A8 A9 (ix2 n (gcol2 j)))
          (val_main_v11 (F := Ideal) A0 A2 A3 A4 A5 (ix2 n j)) := by
  have s0 : val_main_v23 (F := Ideal) A6 A7 (ix2 n j) = val_main_v17 (F := Ideal) A6 A7 (ix2 n (gcol0 j)) :=
    (val_main_v23_apply (F := Ideal) A6 A7 (ix2 n j)).trans (congrArg _ (funext fun d => Fin.ext (by match d with | ⟨0, _⟩ => rfl | ⟨1, _⟩ => rfl)))
  have s1 : val_main_v24 (F := Ideal) A6 A7 (ix2 n j) = val_main_v17 (F := Ideal) A6 A7 (ix2 n (gcol1 j)) :=
    (val_main_v24_apply (F := Ideal) A6 A7 (ix2 n j)).trans (congrArg _ (funext fun d => Fin.ext (by match d with | ⟨0, _⟩ => rfl | ⟨1, _⟩ => rfl)))
  have s2 : val_main_v25 (F := Ideal) A6 A7 (ix2 n j) = val_main_v17 (F := Ideal) A6 A7 (ix2 n (gcol2 j)) :=
    (val_main_v25_apply (F := Ideal) A6 A7 (ix2 n j)).trans (congrArg _ (funext fun d => Fin.ext (by match d with | ⟨0, _⟩ => rfl | ⟨1, _⟩ => rfl)))
  have s3 : val_main_v26 (F := Ideal) A0 A2 A3 A4 A5 A8 A9 (ix2 n j) = val_main_v22 (F := Ideal) A0 A2 A3 A4 A5 A8 A9 (ix2 n (gcol0 j)) :=
    (val_main_v26_apply (F := Ideal) A0 A2 A3 A4 A5 A8 A9 (ix2 n j)).trans (congrArg _ (funext fun d => Fin.ext (by match d with | ⟨0, _⟩ => rfl | ⟨1, _⟩ => rfl)))
  have s4 : val_main_v27 (F := Ideal) A0 A2 A3 A4 A5 A8 A9 (ix2 n j) = val_main_v22 (F := Ideal) A0 A2 A3 A4 A5 A8 A9 (ix2 n (gcol1 j)) :=
    (val_main_v27_apply (F := Ideal) A0 A2 A3 A4 A5 A8 A9 (ix2 n j)).trans (congrArg _ (funext fun d => Fin.ext (by match d with | ⟨0, _⟩ => rfl | ⟨1, _⟩ => rfl)))
  have s5 : val_main_v28 (F := Ideal) A0 A2 A3 A4 A5 A8 A9 (ix2 n j) = val_main_v22 (F := Ideal) A0 A2 A3 A4 A5 A8 A9 (ix2 n (gcol2 j)) :=
    (val_main_v28_apply (F := Ideal) A0 A2 A3 A4 A5 A8 A9 (ix2 n j)).trans (congrArg _ (funext fun d => Fin.ext (by match d with | ⟨0, _⟩ => rfl | ⟨1, _⟩ => rfl)))
  have c9 : val_main_v32 (F := Ideal) (ix2 n j) = 1 := (val_main_v32_apply (F := Ideal) (ix2 n j)).trans ofBits_one
  have c11 : val_main_v34 (F := Ideal) (ix2 n j) = 1 := (val_main_v34_apply (F := Ideal) (ix2 n j)).trans ofBits_one
  have c16 : val_main_v39 (F := Ideal) (ix2 n j) = 1 := (val_main_v39_apply (F := Ideal) (ix2 n j)).trans ofBits_one
  have c18 : val_main_v41 (F := Ideal) (ix2 n j) = 1 := (val_main_v41_apply (F := Ideal) (ix2 n j)).trans ofBits_one
  have c23 : val_main_v46 (F := Ideal) (ix2 n j) = 1 := (val_main_v46_apply (F := Ideal) (ix2 n j)).trans ofBits_one
  show (val_main_v46 (F := Ideal) (ix2 n j) - Ideal.div (val_main_v41 (F := Ideal) (ix2 n j)) (val_main_v39 (F := Ideal) (ix2 n j) + Ideal.exp (-(val_main_v24 (F := Ideal) A6 A7 (ix2 n j) + val_main_v27 (F := Ideal) A0 A2 A3 A4 A5 A8 A9 (ix2 n j))))) * Ideal.tanh (val_main_v25 (F := Ideal) A6 A7 (ix2 n j) + Ideal.div (val_main_v34 (F := Ideal) (ix2 n j)) (val_main_v32 (F := Ideal) (ix2 n j) + Ideal.exp (-(val_main_v23 (F := Ideal) A6 A7 (ix2 n j) + val_main_v26 (F := Ideal) A0 A2 A3 A4 A5 A8 A9 (ix2 n j)))) * val_main_v28 (F := Ideal) A0 A2 A3 A4 A5 A8 A9 (ix2 n j)) + Ideal.div (val_main_v41 (F := Ideal) (ix2 n j)) (val_main_v39 (F := Ideal) (ix2 n j) + Ideal.exp (-(val_main_v24 (F := Ideal) A6 A7 (ix2 n j) + val_main_v27 (F := Ideal) A0 A2 A3 A4 A5 A8 A9 (ix2 n j)))) * val_main_v11 (F := Ideal) A0 A2 A3 A4 A5 (ix2 n j) = _
  rw [s0, s1, s2, s3, s4, s5, c9, c11, c16, c18, c23]
  rfl

/-! ## What an agent hears -/

/-- The states regrouped by batch, read at (batch, agent, unit). -/
theorem rRegroup_apply (b : Fin 2048) (a : Fin 32) (j : Fin 256) :
    val_main_v51 (F := Ideal) A0 A2 A3 A4 A5 A6 A7 A8 A9 (ix3 b a j) = val_main_v50 (F := Ideal) A0 A2 A3 A4 A5 A6 A7 A8 A9 (ix2 (grow b a) j) := by
  have := b.isLt; have := a.isLt; have := j.isLt
  exact (val_main_v51_apply (F := Ideal) A0 A2 A3 A4 A5 A6 A7 A8 A9 (ix3 b a j)).trans (congrArg _ (funext fun d => Fin.ext (by
    match d with
    | ⟨0, _⟩ => show ((b.val * 32 + a.val) * 256 + j.val) / 256 = 32 * b.val + a.val; omega
    | ⟨1, _⟩ => show ((b.val * 32 + a.val) * 256 + j.val) % 256 = j.val; omega)))

/-- Agent `a` of batch `b` hears the batch's sum less its own state, times 1/32 (the quotient by 32). -/
theorem rMix_apply (b : Fin 2048) (a : Fin 32) (j : Fin 256) :
    val_main_v58 (F := Ideal) A0 A2 A3 A4 A5 A6 A7 A8 A9 (ix2 (grow b a) j)
      = ((∑ a' : Fin 32, val_main_v50 (F := Ideal) A0 A2 A3 A4 A5 A6 A7 A8 A9 (ix2 (grow b a') j)) - val_main_v50 (F := Ideal) A0 A2 A3 A4 A5 A6 A7 A8 A9 (ix2 (grow b a) j))
          * Ideal.ofBits .f32 0x3D000000#32 := by
  have hb := b.isLt; have ha := a.isLt; have hj := j.isLt
  have e58 : idx_main_v58 (ix2 (grow b a) j) = ix3 b a j := funext fun d => Fin.ext (by
    match d with
    | ⟨0, _⟩ => show ((32 * b.val + a.val) * 256 + j.val) / 8192 = b.val; omega
    | ⟨1, _⟩ => show ((32 * b.val + a.val) * 256 + j.val) / 256 % 32 = a.val; omega
    | ⟨2, _⟩ => show ((32 * b.val + a.val) * 256 + j.val) % 256 = j.val; omega)
  rw [val_main_v58_apply, e58, val_main_v57_apply, val_main_v55_apply, val_main_v54_apply, val_main_v53_apply,
    val_main_v52_apply, val_main_v56_apply]
  have e52 : ∀ k : Fin 32, idx_main_v52 (idx_main_v53 (idx_main_v54 (ix3 b a j))) k = ix3 b k j := fun k =>
    funext fun d => Fin.ext (by match d with | ⟨0, _⟩ => rfl | ⟨1, _⟩ => rfl | ⟨2, _⟩ => rfl)
  simp only [e52, rRegroup_apply]
  show Ideal.div ((Ideal.ofBits .f32 0x00000000#32 + ∑ k : Fin 32, val_main_v50 (F := Ideal) A0 A2 A3 A4 A5 A6 A7 A8 A9 (ix2 (grow b k) j))
      - val_main_v50 (F := Ideal) A0 A2 A3 A4 A5 A6 A7 A8 A9 (ix2 (grow b a) j)) (Ideal.ofBits .f32 0x42000000#32) = _
  rw [div_32, ofBits_zero, zero_add]

/-! ## The second GRU step -/

/-- The heard vector's gate rows in the second step. -/
theorem rGi2_apply (n : Fin 65536) (j : Fin 768) :
    val_main_v63 (F := Ideal) A0 A2 A3 A4 A5 A6 A7 A8 A9 (ix2 n j)
      = (∑ k : Fin 256, val_main_v58 (F := Ideal) A0 A2 A3 A4 A5 A6 A7 A8 A9 (ix2 n k) * val_main_v59 (F := Ideal) A6 (ix2 k j)) + A7 (ix1 j) := by
  rw [val_main_v63_apply, val_main_v60_apply, val_main_v62_apply, val_main_v61_apply]
  have el : ∀ k : Fin 256, lidx_main_v60 (ix2 n j) k = ix2 n k := fun k => funext fun d => Fin.ext (by match d with | ⟨0, _⟩ => rfl | ⟨1, _⟩ => rfl)
  have er : ∀ k : Fin 256, ridx_main_v60 (ix2 n j) k = ix2 k j := fun k => funext fun d => Fin.ext (by match d with | ⟨0, _⟩ => rfl | ⟨1, _⟩ => rfl)
  have eb : idx_main_v61 (idx_main_v62 (ix2 n j)) = ix1 j :=
    funext fun d => Fin.ext (by match d with | ⟨0, _⟩ => rfl)
  simp only [el, er, eb]
  rfl

/-- The state's gate rows in the second step. -/
theorem rGh2_apply (n : Fin 65536) (j : Fin 768) :
    val_main_v68 (F := Ideal) A0 A2 A3 A4 A5 A6 A7 A8 A9 (ix2 n j)
      = (∑ k : Fin 256, val_main_v50 (F := Ideal) A0 A2 A3 A4 A5 A6 A7 A8 A9 (ix2 n k) * val_main_v64 (F := Ideal) A8 (ix2 k j)) + A9 (ix1 j) := by
  rw [val_main_v68_apply, val_main_v65_apply, val_main_v67_apply, val_main_v66_apply]
  have el : ∀ k : Fin 256, lidx_main_v65 (ix2 n j) k = ix2 n k := fun k => funext fun d => Fin.ext (by match d with | ⟨0, _⟩ => rfl | ⟨1, _⟩ => rfl)
  have er : ∀ k : Fin 256, ridx_main_v65 (ix2 n j) k = ix2 k j := fun k => funext fun d => Fin.ext (by match d with | ⟨0, _⟩ => rfl | ⟨1, _⟩ => rfl)
  have eb : idx_main_v66 (idx_main_v67 (ix2 n j)) = ix1 j :=
    funext fun d => Fin.ext (by match d with | ⟨0, _⟩ => rfl)
  simp only [el, er, eb]
  rfl

/-- The state after the second step, at (row, unit). -/
theorem rH2_apply (n : Fin 65536) (j : Fin 256) :
    val_main_v96 (F := Ideal) A0 A2 A3 A4 A5 A6 A7 A8 A9 (ix2 n j)
      = gruCell (val_main_v63 (F := Ideal) A0 A2 A3 A4 A5 A6 A7 A8 A9 (ix2 n (gcol0 j))) (val_main_v63 (F := Ideal) A0 A2 A3 A4 A5 A6 A7 A8 A9 (ix2 n (gcol1 j))) (val_main_v63 (F := Ideal) A0 A2 A3 A4 A5 A6 A7 A8 A9 (ix2 n (gcol2 j)))
          (val_main_v68 (F := Ideal) A0 A2 A3 A4 A5 A6 A7 A8 A9 (ix2 n (gcol0 j))) (val_main_v68 (F := Ideal) A0 A2 A3 A4 A5 A6 A7 A8 A9 (ix2 n (gcol1 j))) (val_main_v68 (F := Ideal) A0 A2 A3 A4 A5 A6 A7 A8 A9 (ix2 n (gcol2 j)))
          (val_main_v50 (F := Ideal) A0 A2 A3 A4 A5 A6 A7 A8 A9 (ix2 n j)) := by
  have s0 : val_main_v69 (F := Ideal) A0 A2 A3 A4 A5 A6 A7 A8 A9 (ix2 n j) = val_main_v63 (F := Ideal) A0 A2 A3 A4 A5 A6 A7 A8 A9 (ix2 n (gcol0 j)) :=
    (val_main_v69_apply (F := Ideal) A0 A2 A3 A4 A5 A6 A7 A8 A9 (ix2 n j)).trans (congrArg _ (funext fun d => Fin.ext (by match d with | ⟨0, _⟩ => rfl | ⟨1, _⟩ => rfl)))
  have s1 : val_main_v70 (F := Ideal) A0 A2 A3 A4 A5 A6 A7 A8 A9 (ix2 n j) = val_main_v63 (F := Ideal) A0 A2 A3 A4 A5 A6 A7 A8 A9 (ix2 n (gcol1 j)) :=
    (val_main_v70_apply (F := Ideal) A0 A2 A3 A4 A5 A6 A7 A8 A9 (ix2 n j)).trans (congrArg _ (funext fun d => Fin.ext (by match d with | ⟨0, _⟩ => rfl | ⟨1, _⟩ => rfl)))
  have s2 : val_main_v71 (F := Ideal) A0 A2 A3 A4 A5 A6 A7 A8 A9 (ix2 n j) = val_main_v63 (F := Ideal) A0 A2 A3 A4 A5 A6 A7 A8 A9 (ix2 n (gcol2 j)) :=
    (val_main_v71_apply (F := Ideal) A0 A2 A3 A4 A5 A6 A7 A8 A9 (ix2 n j)).trans (congrArg _ (funext fun d => Fin.ext (by match d with | ⟨0, _⟩ => rfl | ⟨1, _⟩ => rfl)))
  have s3 : val_main_v72 (F := Ideal) A0 A2 A3 A4 A5 A6 A7 A8 A9 (ix2 n j) = val_main_v68 (F := Ideal) A0 A2 A3 A4 A5 A6 A7 A8 A9 (ix2 n (gcol0 j)) :=
    (val_main_v72_apply (F := Ideal) A0 A2 A3 A4 A5 A6 A7 A8 A9 (ix2 n j)).trans (congrArg _ (funext fun d => Fin.ext (by match d with | ⟨0, _⟩ => rfl | ⟨1, _⟩ => rfl)))
  have s4 : val_main_v73 (F := Ideal) A0 A2 A3 A4 A5 A6 A7 A8 A9 (ix2 n j) = val_main_v68 (F := Ideal) A0 A2 A3 A4 A5 A6 A7 A8 A9 (ix2 n (gcol1 j)) :=
    (val_main_v73_apply (F := Ideal) A0 A2 A3 A4 A5 A6 A7 A8 A9 (ix2 n j)).trans (congrArg _ (funext fun d => Fin.ext (by match d with | ⟨0, _⟩ => rfl | ⟨1, _⟩ => rfl)))
  have s5 : val_main_v74 (F := Ideal) A0 A2 A3 A4 A5 A6 A7 A8 A9 (ix2 n j) = val_main_v68 (F := Ideal) A0 A2 A3 A4 A5 A6 A7 A8 A9 (ix2 n (gcol2 j)) :=
    (val_main_v74_apply (F := Ideal) A0 A2 A3 A4 A5 A6 A7 A8 A9 (ix2 n j)).trans (congrArg _ (funext fun d => Fin.ext (by match d with | ⟨0, _⟩ => rfl | ⟨1, _⟩ => rfl)))
  have c9 : val_main_v78 (F := Ideal) (ix2 n j) = 1 := (val_main_v78_apply (F := Ideal) (ix2 n j)).trans ofBits_one
  have c11 : val_main_v80 (F := Ideal) (ix2 n j) = 1 := (val_main_v80_apply (F := Ideal) (ix2 n j)).trans ofBits_one
  have c16 : val_main_v85 (F := Ideal) (ix2 n j) = 1 := (val_main_v85_apply (F := Ideal) (ix2 n j)).trans ofBits_one
  have c18 : val_main_v87 (F := Ideal) (ix2 n j) = 1 := (val_main_v87_apply (F := Ideal) (ix2 n j)).trans ofBits_one
  have c23 : val_main_v92 (F := Ideal) (ix2 n j) = 1 := (val_main_v92_apply (F := Ideal) (ix2 n j)).trans ofBits_one
  show (val_main_v92 (F := Ideal) (ix2 n j) - Ideal.div (val_main_v87 (F := Ideal) (ix2 n j)) (val_main_v85 (F := Ideal) (ix2 n j) + Ideal.exp (-(val_main_v70 (F := Ideal) A0 A2 A3 A4 A5 A6 A7 A8 A9 (ix2 n j) + val_main_v73 (F := Ideal) A0 A2 A3 A4 A5 A6 A7 A8 A9 (ix2 n j))))) * Ideal.tanh (val_main_v71 (F := Ideal) A0 A2 A3 A4 A5 A6 A7 A8 A9 (ix2 n j) + Ideal.div (val_main_v80 (F := Ideal) (ix2 n j)) (val_main_v78 (F := Ideal) (ix2 n j) + Ideal.exp (-(val_main_v69 (F := Ideal) A0 A2 A3 A4 A5 A6 A7 A8 A9 (ix2 n j) + val_main_v72 (F := Ideal) A0 A2 A3 A4 A5 A6 A7 A8 A9 (ix2 n j)))) * val_main_v74 (F := Ideal) A0 A2 A3 A4 A5 A6 A7 A8 A9 (ix2 n j)) + Ideal.div (val_main_v87 (F := Ideal) (ix2 n j)) (val_main_v85 (F := Ideal) (ix2 n j) + Ideal.exp (-(val_main_v70 (F := Ideal) A0 A2 A3 A4 A5 A6 A7 A8 A9 (ix2 n j) + val_main_v73 (F := Ideal) A0 A2 A3 A4 A5 A6 A7 A8 A9 (ix2 n j)))) * val_main_v50 (F := Ideal) A0 A2 A3 A4 A5 A6 A7 A8 A9 (ix2 n j) = _
  rw [s0, s1, s2, s3, s4, s5, c9, c11, c16, c18, c23]
  rfl

/-! ## The decoder and the result's shape -/

/-- The decoder's one output per row. -/
theorem rDec_apply (n : Fin 65536) :
    val_main_v101 (F := Ideal) A0 A2 A3 A4 A5 A6 A7 A8 A9 A10 A11 (ix2 n (0 : Fin 1))
      = (∑ k : Fin 256, val_main_v96 (F := Ideal) A0 A2 A3 A4 A5 A6 A7 A8 A9 (ix2 n k) * val_main_v97 (F := Ideal) A10 (ix2 k (0 : Fin 1))) + A11 (ix1 (0 : Fin 1)) := by
  rw [val_main_v101_apply, val_main_v98_apply, val_main_v100_apply, val_main_v99_apply]
  have el : ∀ k : Fin 256, lidx_main_v98 (ix2 n (0 : Fin 1)) k = ix2 n k := fun k => funext fun d => Fin.ext (by match d with | ⟨0, _⟩ => rfl | ⟨1, _⟩ => rfl)
  have er : ∀ k : Fin 256, ridx_main_v98 (ix2 n (0 : Fin 1)) k = ix2 k (0 : Fin 1) := fun k => funext fun d => Fin.ext (by match d with | ⟨0, _⟩ => rfl | ⟨1, _⟩ => rfl)
  have eb : idx_main_v99 (idx_main_v100 (ix2 n (0 : Fin 1))) = ix1 (0 : Fin 1) :=
    funext fun d => Fin.ext (by match d with | ⟨0, _⟩ => rfl)
  simp only [el, er, eb]
  rfl

/-- The result regrouped by batch: (batch, agent) is row `32·batch + agent`. -/
theorem rOut_apply (b : Fin 2048) (a : Fin 32) :
    val_main_v102 (F := Ideal) A0 A2 A3 A4 A5 A6 A7 A8 A9 A10 A11 (ix3 b a (0 : Fin 1)) = val_main_v101 (F := Ideal) A0 A2 A3 A4 A5 A6 A7 A8 A9 A10 A11 (ix2 (grow b a) (0 : Fin 1)) := by
  have := b.isLt; have := a.isLt
  exact (val_main_v102_apply (F := Ideal) A0 A2 A3 A4 A5 A6 A7 A8 A9 A10 A11 (ix3 b a (0 : Fin 1))).trans (congrArg _ (funext fun d => Fin.ext (by
    match d with
    | ⟨0, _⟩ => show ((b.val * 32 + a.val) * 1 + 0) / 1 = 32 * b.val + a.val; omega
    | ⟨1, _⟩ => rfl)))

end Cert.AgentGru

end
-- ==== Proof.Bridge.lean ====
/-
  The kernel's stages on block `t` are the reference's stages on rows 1024·t … 1024·t + 1023: a row's stages depend on
  that row alone, except what an agent hears, which depends on the 32 rows of its batch — and a block holds whole batches.
-/
import proofs.«148773_j23081154249051_2_alg».proof.Proof.KStages
import proofs.«148773_j23081154249051_2_alg».proof.Proof.RStages

noncomputable section

namespace Cert.AgentGru

open Idealize.ShloMosaic Idealize.ShloMosaic.ValueIdx

/-- Batch `p` of block `t` among all batches. -/
abbrev tbatch (t : Fin 64) (p : Fin 32) : Fin 2048 := ⟨32 * t.val + p.val, by have := t.isLt; have := p.isLt; omega⟩

/-- Agent `q` of batch `p` of block `t`, as a row of the block and as a row of the whole. -/
theorem trow_brow (t : Fin 64) (p q : Fin 32) : trow t (brow p q) = grow (tbatch t p) q :=
  Fin.ext (by show 1024 * t.val + (32 * p.val + q.val) = 32 * (32 * t.val + p.val) + q.val; omega)

/-- Every row of a block is some agent of some batch of the block. -/
theorem brow_div_mod (r : Fin 1024) :
    r = brow ⟨r.val / 32, by have := r.isLt; omega⟩ ⟨r.val % 32, Nat.mod_lt _ (by decide)⟩ :=
  Fin.ext (by show r.val = 32 * (r.val / 32) + r.val % 32; omega)

section
variable (A0 : (⟨Cert.ReferenceIdeal.S2048x32x128, .f32⟩ : BufTy).Contents (Elt Ideal)) (A2 : (⟨Cert.ReferenceIdeal.S256x128, .f32⟩ : BufTy).Contents (Elt Ideal))
  (A3 : (⟨Cert.ReferenceIdeal.S256, .f32⟩ : BufTy).Contents (Elt Ideal)) (A4 : (⟨Cert.ReferenceIdeal.S256x256, .f32⟩ : BufTy).Contents (Elt Ideal))
  (A5 : (⟨Cert.ReferenceIdeal.S256, .f32⟩ : BufTy).Contents (Elt Ideal)) (A6 : (⟨Cert.ReferenceIdeal.S768x256, .f32⟩ : BufTy).Contents (Elt Ideal))
  (A7 : (⟨Cert.ReferenceIdeal.S768, .f32⟩ : BufTy).Contents (Elt Ideal)) (A8 : (⟨Cert.ReferenceIdeal.S768x256, .f32⟩ : BufTy).Contents (Elt Ideal))
  (A9 : (⟨Cert.ReferenceIdeal.S768, .f32⟩ : BufTy).Contents (Elt Ideal)) (A10 : (⟨Cert.ReferenceIdeal.S1x256, .f32⟩ : BufTy).Contents (Elt Ideal))
  (A11 : (⟨Cert.ReferenceIdeal.S1, .f32⟩ : BufTy).Contents (Elt Ideal))
variable (x0 : FVec Ideal Cert.KernelIdeal.S1024x128 .f32) (x1 : FVec Ideal Cert.KernelIdeal.S128x256 .f32) (x2 : FVec Ideal Cert.KernelIdeal.S1x256 .f32)
  (x3 : FVec Ideal Cert.KernelIdeal.S256x256 .f32) (x4 : FVec Ideal Cert.KernelIdeal.S1x256 .f32) (x5 : FVec Ideal Cert.KernelIdeal.S256x768 .f32)
  (x6 : FVec Ideal Cert.KernelIdeal.S1x768 .f32) (x7 : FVec Ideal Cert.KernelIdeal.S256x768 .f32) (x8 : FVec Ideal Cert.KernelIdeal.S1x768 .f32)
  (x9 : FVec Ideal Cert.KernelIdeal.S256x1 .f32) (x10 : FVec Ideal Cert.KernelIdeal.S1x1 .f32)
variable (t : Fin 64)

/-- What the block's windows hold: rows 1024·t … of the observations, and the weights and biases laid out for the kernel
    (each weight transposed, each bias as one row). -/
structure Blocks : Prop where
  hx : ∀ (r : Fin 1024) (d : Fin 128), x0 (ix2 r d) = Cert.ReferenceIdeal.Read.val_main_v0 (F := Ideal) A0 (ix2 (trow t r) d)
  hw1 : ∀ (d : Fin 128) (l : Fin 256), x1 (ix2 d l) = Cert.ReferenceIdeal.Read.val_main_v1 (F := Ideal) A2 (ix2 d l)
  hb1 : ∀ l : Fin 256, x2 (ix2 0 l) = A3 (ix1 l)
  hw2 : ∀ (l j : Fin 256), x3 (ix2 l j) = Cert.ReferenceIdeal.Read.val_main_v7 (F := Ideal) A4 (ix2 l j)
  hb2 : ∀ j : Fin 256, x4 (ix2 0 j) = A5 (ix1 j)
  hw3 : ∀ (k : Fin 256) (g : Fin 768), x5 (ix2 k g) = Cert.ReferenceIdeal.Read.val_main_v59 (F := Ideal) A6 (ix2 k g)
  hb3 : ∀ g : Fin 768, x6 (ix2 0 g) = A7 (ix1 g)
  hw4 : ∀ (k : Fin 256) (g : Fin 768), x7 (ix2 k g) = Cert.ReferenceIdeal.Read.val_main_v18 (F := Ideal) A8 (ix2 k g)
  hb4 : ∀ g : Fin 768, x8 (ix2 0 g) = A9 (ix1 g)
  hw5 : ∀ k : Fin 256, x9 (ix2 k (0 : Fin 1)) = Cert.ReferenceIdeal.Read.val_main_v97 (F := Ideal) A10 (ix2 k (0 : Fin 1))
  hb5 : x10 (ix2 0 (0 : Fin 1)) = A11 (ix1 (0 : Fin 1))

variable {A0 A2 A3 A4 A5 A6 A7 A8 A9 A10 A11 x0 x1 x2 x3 x4 x5 x6 x7 x8 x9 x10 t}
variable (B : Blocks A0 A2 A3 A4 A5 A6 A7 A8 A9 A10 A11 x0 x1 x2 x3 x4 x5 x6 x7 x8 x9 x10 t)
include B

/-- The encoder's output. -/
theorem enc_eq (r : Fin 1024) (l : Fin 256) : kEnc x0 x1 x2 (ix2 r l) = Cert.ReferenceIdeal.Read.val_main_v6 (F := Ideal) A0 A2 A3 (ix2 (trow t r) l) := by
  rw [kEnc_apply, rEnc_apply]
  simp only [B.hx, B.hw1, B.hb1]

/-- The hidden state. -/
theorem h0_eq (r : Fin 1024) (j : Fin 256) : kH0 x0 x1 x2 x3 x4 (ix2 r j) = Cert.ReferenceIdeal.Read.val_main_v11 (F := Ideal) A0 A2 A3 A4 A5 (ix2 (trow t r) j) := by
  unfold kH0
  rw [kLinHid_apply, rHid_apply]
  simp only [enc_eq B, B.hw2, B.hb2]

/-- The first step's input gate rows: the bias on both sides. -/
theorem gi1_eq (r : Fin 1024) (g : Fin 768) : kBias x6 (ix2 r g) = Cert.ReferenceIdeal.Read.val_main_v17 (F := Ideal) A6 A7 (ix2 (trow t r) g) := by
  rw [kBias_apply, rGi1_apply, B.hb3]

/-- The first step's state gate rows. -/
theorem gh1_eq (r : Fin 1024) (g : Fin 768) :
    kLinGate (kH0 x0 x1 x2 x3 x4) x7 x8 (ix2 r g) = Cert.ReferenceIdeal.Read.val_main_v22 (F := Ideal) A0 A2 A3 A4 A5 A8 A9 (ix2 (trow t r) g) := by
  rw [kLinGate_apply, rGh1_apply]
  simp only [h0_eq B, B.hw4, B.hb4]

/-- The state after the first step. -/
theorem h1_eq (r : Fin 1024) (j : Fin 256) : kH1 x0 x1 x2 x3 x4 x6 x7 x8 (ix2 r j) = Cert.ReferenceIdeal.Read.val_main_v50 (F := Ideal) A0 A2 A3 A4 A5 A6 A7 A8 A9 (ix2 (trow t r) j) := by
  unfold kH1
  rw [kGru_apply, rH1_apply]
  simp only [gi1_eq B, gh1_eq B, h0_eq B]

/-- What an agent hears: the sum runs over the 32 rows of the agent's batch, all in the block. -/
theorem mix_eq (r : Fin 1024) (j : Fin 256) : kMix (kH1 x0 x1 x2 x3 x4 x6 x7 x8) (ix2 r j) = Cert.ReferenceIdeal.Read.val_main_v58 (F := Ideal) A0 A2 A3 A4 A5 A6 A7 A8 A9 (ix2 (trow t r) j) := by
  rw [brow_div_mod r, trow_brow, kMix_apply, rMix_apply]
  simp only [h1_eq B, trow_brow]

/-- The second step's input gate rows. -/
theorem gi2_eq (r : Fin 1024) (g : Fin 768) :
    kLinGate (kMix (kH1 x0 x1 x2 x3 x4 x6 x7 x8)) x5 x6 (ix2 r g) = Cert.ReferenceIdeal.Read.val_main_v63 (F := Ideal) A0 A2 A3 A4 A5 A6 A7 A8 A9 (ix2 (trow t r) g) := by
  rw [kLinGate_apply, rGi2_apply]
  simp only [mix_eq B, B.hw3, B.hb3]

/-- The second step's state gate rows (the same transposed weight, named twice by the reference). -/
theorem gh2_eq (r : Fin 1024) (g : Fin 768) :
    kLinGate (kH1 x0 x1 x2 x3 x4 x6 x7 x8) x7 x8 (ix2 r g) = Cert.ReferenceIdeal.Read.val_main_v68 (F := Ideal) A0 A2 A3 A4 A5 A6 A7 A8 A9 (ix2 (trow t r) g) := by
  rw [kLinGate_apply, rGh2_apply]
  simp only [h1_eq B, B.hw4, B.hb4]
  rfl

/-- The state after the second step. -/
theorem h2_eq (r : Fin 1024) (j : Fin 256) : kH2 x0 x1 x2 x3 x4 x5 x6 x7 x8 (ix2 r j) = Cert.ReferenceIdeal.Read.val_main_v96 (F := Ideal) A0 A2 A3 A4 A5 A6 A7 A8 A9 (ix2 (trow t r) j) := by
  unfold kH2
  rw [kGru_apply, rH2_apply]
  simp only [gi2_eq B, gh2_eq B, h1_eq B]

/-- The block's decoded outputs are the reference's at the block's rows. -/
theorem out_eq (r : Fin 1024) :
    kOut x0 x1 x2 x3 x4 x5 x6 x7 x8 x9 x10 (ix2 r (0 : Fin 1)) = Cert.ReferenceIdeal.Read.val_main_v101 (F := Ideal) A0 A2 A3 A4 A5 A6 A7 A8 A9 A10 A11 (ix2 (trow t r) (0 : Fin 1)) := by
  unfold kOut
  rw [kLinDec_apply, rDec_apply]
  simp only [h2_eq B, B.hw5, B.hb5]

end

end Cert.AgentGru

end
-- ==== Proof.KValue.lean ====
/-
  The kernel's run read as values. What grid point `t` writes back is the block's decoded outputs, a function of the
  window blocks at `t`: rows 1024·t … of the observations (the only window that moves with `t`) and the whole weight and
  bias arrays, which the host laid out before the call (weights transposed, biases as one row). Those are the reference's
  operands, so by the stage-by-stage bridge the block is rows 1024·t … of the reference's decoder output; the blocks tile
  the 65536 rows, and the host's last line regroups the rows by batch, as the reference's does.
-/
import proofs.«148773_j23081154249051_2_alg».proof.Proof.Gen.KernelIdeal.Frame
import proofs.«148773_j23081154249051_2_alg».proof.Proof.Bridge
import Idealize.ShloMosaic.Lib.Pipeline.Value
import Idealize.ShloMosaic.Lib.StableHlo.Run

set_option maxRecDepth 16384

noncomputable section

namespace Cert.KernelIdeal.KValue

open Cert.KernelIdeal Cert.KernelIdeal.Gen Cert.AgentGru
open Idealize.ShloMosaic Idealize.ShloMosaic.TcCoe Idealize.ShloMosaic.Tactic Idealize.ShloMosaic.ValueIdx Idealize.ShloMosaic.StableHlo
open Idealize.SL Idealize.SL.Sem
open Idealize.ShloMosaic.Pipeline (Dat Cfg Window)

/-! ## The body's payloads are the composed stages -/

theorem pay2_eq (v0 : Vec Ideal S1024x128 .f32) (v2 : Vec Ideal S128x256 .f32) (v4 : Vec Ideal S1x256 .f32)
    (v13 : Vec Ideal S256x256 .f32) (v15 : Vec Ideal S1x256 .f32) :
    k0_pay2 (F := Ideal) v0 v2 v4 v13 v15 = kH0 v0 v2 v4 v13 v15 := by
  unfold k0_pay2 kH0 kEnc kLinHid kLinEnc
  simp only [shapeCast_self]

theorem pay3_eq (v : Vec Ideal S256x768 .f32) : k0_pay3 (F := Ideal) v = v := by unfold k0_pay3; exact shapeCast_self _ _
theorem pay4_eq (v : Vec Ideal S1x768 .f32) : k0_pay4 (F := Ideal) v = v := by unfold k0_pay4; exact shapeCast_self _ _
theorem pay5_eq (v : Vec Ideal S1x768 .f32) : k0_pay5 (F := Ideal) v = v := by unfold k0_pay5; exact shapeCast_self _ _
theorem pay6_eq (v : Vec Ideal S256x768 .f32) : k0_pay6 (F := Ideal) v = v := by unfold k0_pay6; exact shapeCast_self _ _

theorem pay7_eq (v0 : Vec Ideal S1024x128 .f32) (v2 : Vec Ideal S128x256 .f32) (v4 : Vec Ideal S1x256 .f32)
    (v13 : Vec Ideal S256x256 .f32) (v15 : Vec Ideal S1x256 .f32) (v22 : Vec Ideal S256x768 .f32) (v24 : Vec Ideal S1x768 .f32) :
    k0_pay7 (F := Ideal) v0 v2 v4 v13 v15 v22 v24 = kLinGate (kH0 v0 v2 v4 v13 v15) v22 v24 := by
  unfold k0_pay7 kLinGate
  simp only [pay2_eq, pay3_eq, pay4_eq]

theorem pay8_eq (v26 : Vec Ideal S1x768 .f32) : k0_pay8 (F := Ideal) v26 = kBias v26 := by
  unfold k0_pay8 kBias
  simp only [pay5_eq, shapeCast_self]

theorem pay9_eq (v21 : FVec Ideal S1024x256 .f32) (v23 : FVec Ideal S256x768 .f32) (v25 : FVec Ideal S1x768 .f32)
    (v27 : FVec Ideal S1x768 .f32) (v29 : FVec Ideal S256x768 .f32) (v34 : FVec Ideal S1024x768 .f32) (v36 : FVec Ideal S1024x768 .f32) :
    k0_pay9 (F := Ideal) v21 v23 v25 v27 v29 v34 v36
      = kGru (kLinGate (kMix (kGru v36 v34 v21)) v29 v27) (kLinGate (kGru v36 v34 v21) v23 v25) (kGru v36 v34 v21) := rfl

theorem pay1_eq (v90 : FVec Ideal S1024x256 .f32) (v91 : Vec Ideal S256x1 .f32) (v93 : Vec Ideal S1x1 .f32) :
    k0_pay1 (F := Ideal) v90 v91 v93 = kLinDec v90 v91 v93 := by
  unfold k0_pay1 kLinDec
  simp only [shapeCast_self]

theorem hz : (![0, 0] : Fin 2 → Nat) = fun _ => 0 := funext fun a => by fin_cases a <;> rfl

/-- What the body leaves in the output's staging buffer: the decoded outputs of the block's rows. -/
theorem out11_eq (x0 : Vec Ideal S1024x128 .f32) (x1 : Vec Ideal S128x256 .f32) (x2 : Vec Ideal S1x256 .f32)
    (x3 : Vec Ideal S256x256 .f32) (x4 : Vec Ideal S1x256 .f32) (x5 : Vec Ideal S256x768 .f32) (x6 : Vec Ideal S1x768 .f32)
    (x7 : Vec Ideal S256x768 .f32) (x8 : Vec Ideal S1x768 .f32) (x9 : Vec Ideal S256x1 .f32) (x10 : Vec Ideal S1x1 .f32) :
    out0_11 (F := Ideal) x0 x1 x2 x3 x4 x5 x6 x7 x8 x9 x10 = kOut x0 x1 x2 x3 x4 x5 x6 x7 x8 x9 x10 := by
  unfold out0_11
  rw [View.canon_unit_zero hz]
  simp only [View.ld_unit_zero (S := S1024x128) hz, View.ld_unit_zero (S := S128x256) hz, View.ld_unit_zero (S := S1x256) hz,
    View.ld_unit_zero (S := S256x256) hz, View.ld_unit_zero (S := S256x768) hz, View.ld_unit_zero (S := S1x768) hz,
    View.ld_unit_zero (S := S256x1) hz, View.ld_unit_zero (S := S1x1) hz]
  rw [pay1_eq, pay9_eq, pay2_eq, pay3_eq, pay4_eq, pay5_eq, pay6_eq, pay7_eq, pay8_eq]
  rfl

/-! ## The windows' index maps -/

/-- Decided over the 64 grid points: the observations' and the output's windows step one block of 1024 rows per point; every
    weight and bias window stays at its whole array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = t.val ∧ win0_11.index t (1 : Fin 2) = 0 :=
  (by decide +kernel : ∀ t : Fin grid0.N, _)

/-- A grid point as a block number below 64. -/
abbrev tnum (t : Fin cfg0.N) : Fin 64 := ⟨t.val, lt_of_lt_of_eq t.isLt N_0⟩

variable (m : (ℓ : Loc nD τ sig) → Buf (Elt Ideal) ℓ) (ρ : Dev nD → PrngReg)

/-! ## The arrays as the region finds them: the reference's own operands -/

theorem V_v0 (c : Dev nD) : (V m c main_v0 : S65536x128.Idx → EReal) = Cert.ReferenceIdeal.Read.val_main_v0 (F := Ideal) (m ((c : Thread nD τ).loc main_arg0)) := by
  show StableHlo.after hostOps0 (fun b => m (c, b)) (Proc.devRef .tc main_v0) = _
  after_results
  rfl
theorem V_v1 (c : Dev nD) : (V m c main_v1 : S128x256.Idx → EReal) = Cert.ReferenceIdeal.Read.val_main_v1 (F := Ideal) (m ((c : Thread nD τ).loc main_arg2)) := by
  show StableHlo.after hostOps0 (fun b => m (c, b)) (Proc.devRef .tc main_v1) = _
  after_results
  rfl
theorem V_v2 (c : Dev nD) : (V m c main_v2 : S256x256.Idx → EReal) = Cert.ReferenceIdeal.Read.val_main_v7 (F := Ideal) (m ((c : Thread nD τ).loc main_arg4)) := by
  show StableHlo.after hostOps0 (fun b => m (c, b)) (Proc.devRef .tc main_v2) = _
  after_results
  rfl
theorem V_v3 (c : Dev nD) : (V m c main_v3 : S256x768.Idx → EReal) = Cert.ReferenceIdeal.Read.val_main_v59 (F := Ideal) (m ((c : Thread nD τ).loc main_arg6)) := by
  show StableHlo.after hostOps0 (fun b => m (c, b)) (Proc.devRef .tc main_v3) = _
  after_results
  rfl
theorem V_v4 (c : Dev nD) : (V m c main_v4 : S256x768.Idx → EReal) = Cert.ReferenceIdeal.Read.val_main_v18 (F := Ideal) (m ((c : Thread nD τ).loc main_arg8)) := by
  show StableHlo.after hostOps0 (fun b => m (c, b)) (Proc.devRef .tc main_v4) = _
  after_results
  rfl
theorem V_v5 (c : Dev nD) : (V m c main_v5 : S256x1.Idx → EReal) = Cert.ReferenceIdeal.Read.val_main_v97 (F := Ideal) (m ((c : Thread nD τ).loc main_arg10)) := by
  show StableHlo.after hostOps0 (fun b => m (c, b)) (Proc.devRef .tc main_v5) = _
  after_results
  rfl

/-! ## The biases: each reshaped by the host to one row -/

theorem V_v6_apply (c : Dev nD) (l : Fin 256) : V m c main_v6 (ix2 0 l) = (m ((c : Thread nD τ).loc main_arg3)) (ix1 l) := by
  have e : (V m c main_v6 : S1x256.Idx → EReal) = shapeCast S1x256 (m ((c : Thread nD τ).loc main_arg3)) shapeCasts_S256_S1x256 := by
    show StableHlo.after hostOps0 (fun b => m (c, b)) (Proc.devRef .tc main_v6) = _
    after_results
    rfl
  exact (congrFun e _).trans (shapeCast_apply _ shapeCasts_S256_S1x256 (ix2 0 l) (ix1 l)
    (by rewrite [Shape.rowMajor_val_one, Shape.rowMajor_val_two]; show l.val = 0 * 256 + l.val; omega))

theorem V_v7_apply (c : Dev nD) (l : Fin 256) : V m c main_v7 (ix2 0 l) = (m ((c : Thread nD τ).loc main_arg5)) (ix1 l) := by
  have e : (V m c main_v7 : S1x256.Idx → EReal) = shapeCast S1x256 (m ((c : Thread nD τ).loc main_arg5)) shapeCasts_S256_S1x256 := by
    show StableHlo.after hostOps0 (fun b => m (c, b)) (Proc.devRef .tc main_v7) = _
    after_results
    rfl
  exact (congrFun e _).trans (shapeCast_apply _ shapeCasts_S256_S1x256 (ix2 0 l) (ix1 l)
    (by rewrite [Shape.rowMajor_val_one, Shape.rowMajor_val_two]; show l.val = 0 * 256 + l.val; omega))

theorem V_v8_apply (c : Dev nD) (l : Fin 768) : V m c main_v8 (ix2 0 l) = (m ((c : Thread nD τ).loc main_arg7)) (ix1 l) := by
  have e : (V m c main_v8 : S1x768.Idx → EReal) = shapeCast S1x768 (m ((c : Thread nD τ).loc main_arg7)) shapeCasts_S768_S1x768 := by
    show StableHlo.after hostOps0 (fun b => m (c, b)) (Proc.devRef .tc main_v8) = _
    after_results
    rfl
  exact (congrFun e _).trans (shapeCast_apply _ shapeCasts_S768_S1x768 (ix2 0 l) (ix1 l)
    (by rewrite [Shape.rowMajor_val_one, Shape.rowMajor_val_two]; show l.val = 0 * 768 + l.val; omega))

theorem V_v9_apply (c : Dev nD) (l : Fin 768) : V m c main_v9 (ix2 0 l) = (m ((c : Thread nD τ).loc main_arg9)) (ix1 l) := by
  have e : (V m c main_v9 : S1x768.Idx → EReal) = shapeCast S1x768 (m ((c : Thread nD τ).loc main_arg9)) shapeCasts_S768_S1x768 := by
    show StableHlo.after hostOps0 (fun b => m (c, b)) (Proc.devRef .tc main_v9) = _
    after_results
    rfl
  exact (congrFun e _).trans (shapeCast_apply _ shapeCasts_S768_S1x768 (ix2 0 l) (ix1 l)
    (by rewrite [Shape.rowMajor_val_one, Shape.rowMajor_val_two]; show l.val = 0 * 768 + l.val; omega))

theorem V_v10_apply (c : Dev nD) (l : Fin 1) : V m c main_v10 (ix2 0 l) = (m ((c : Thread nD τ).loc main_arg11)) (ix1 l) := by
  have e : (V m c main_v10 : S1x1.Idx → EReal) = shapeCast S1x1 (m ((c : Thread nD τ).loc main_arg11)) shapeCasts_S1_S1x1 := by
    show StableHlo.after hostOps0 (fun b => m (c, b)) (Proc.devRef .tc main_v10) = _
    after_results
    rfl
  exact (congrFun e _).trans (shapeCast_apply _ shapeCasts_S1_S1x1 (ix2 0 l) (ix1 l)
    (by rewrite [Shape.rowMajor_val_one, Shape.rowMajor_val_two]; show l.val = 0 * 1 + l.val; omega))

/-! ## The windows' blocks at a point -/

theorem blk0_apply (c : Dev nD) (t : Fin cfg0.N) (a : Fin 1024) (b : Fin 128) :
    (iblk m c 0 t : FVec Ideal S1024x128 .f32) (ix2 a b) = V m c main_v0 (ix2 (trow (tnum t) a) b) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  show V m c main_v0 (((cfg0.win 0).blk t).view.emb (ix2 a b)) = _
  refine congrArg _ (funext fun d => Fin.ext ?_)
  match d with
  | ⟨0, _⟩ => show win0_0.index t (0 : Fin 2) * 1024 + 1 * a.val = 1024 * t.val + a.val; omega
  | ⟨1, _⟩ => show win0_0.index t (1 : Fin 2) * 128 + 1 * b.val = b.val; omega

theorem blk1_apply (c : Dev nD) (t : Fin cfg0.N) (a : Fin 128) (b : Fin 256) :
    (iblk m c 1 t : FVec Ideal S128x256 .f32) (ix2 a b) = V m c main_v1 (ix2 a b) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  show V m c main_v1 (((cfg0.win 1).blk t).view.emb (ix2 a b)) = _
  refine congrArg _ (funext fun d => Fin.ext ?_)
  match d with
  | ⟨0, _⟩ => show win0_1.index t (0 : Fin 2) * 128 + 1 * a.val = a.val; omega
  | ⟨1, _⟩ => show win0_1.index t (1 : Fin 2) * 256 + 1 * b.val = b.val; omega

theorem blk2_apply (c : Dev nD) (t : Fin cfg0.N) (a : Fin 1) (b : Fin 256) :
    (iblk m c 2 t : FVec Ideal S1x256 .f32) (ix2 a b) = V m c main_v6 (ix2 a b) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  show V m c main_v6 (((cfg0.win 2).blk t).view.emb (ix2 a b)) = _
  refine congrArg _ (funext fun d => Fin.ext ?_)
  match d with
  | ⟨0, _⟩ => show win0_2.index t (0 : Fin 2) * 1 + 1 * a.val = a.val; omega
  | ⟨1, _⟩ => show win0_2.index t (1 : Fin 2) * 256 + 1 * b.val = b.val; omega

theorem blk3_apply (c : Dev nD) (t : Fin cfg0.N) (a : Fin 256) (b : Fin 256) :
    (iblk m c 3 t : FVec Ideal S256x256 .f32) (ix2 a b) = V m c main_v2 (ix2 a b) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  show V m c main_v2 (((cfg0.win 3).blk t).view.emb (ix2 a b)) = _
  refine congrArg _ (funext fun d => Fin.ext ?_)
  match d with
  | ⟨0, _⟩ => show win0_3.index t (0 : Fin 2) * 256 + 1 * a.val = a.val; omega
  | ⟨1, _⟩ => show win0_3.index t (1 : Fin 2) * 256 + 1 * b.val = b.val; omega

theorem blk4_apply (c : Dev nD) (t : Fin cfg0.N) (a : Fin 1) (b : Fin 256) :
    (iblk m c 4 t : FVec Ideal S1x256 .f32) (ix2 a b) = V m c main_v7 (ix2 a b) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  show V m c main_v7 (((cfg0.win 4).blk t).view.emb (ix2 a b)) = _
  refine congrArg _ (funext fun d => Fin.ext ?_)
  match d with
  | ⟨0, _⟩ => show win0_4.index t (0 : Fin 2) * 1 + 1 * a.val = a.val; omega
  | ⟨1, _⟩ => show win0_4.index t (1 : Fin 2) * 256 + 1 * b.val = b.val; omega

theorem blk5_apply (c : Dev nD) (t : Fin cfg0.N) (a : Fin 256) (b : Fin 768) :
    (iblk m c 5 t : FVec Ideal S256x768 .f32) (ix2 a b) = V m c main_v3 (ix2 a b) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  show V m c main_v3 (((cfg0.win 5).blk t).view.emb (ix2 a b)) = _
  refine congrArg _ (funext fun d => Fin.ext ?_)
  match d with
  | ⟨0, _⟩ => show win0_5.index t (0 : Fin 2) * 256 + 1 * a.val = a.val; omega
  | ⟨1, _⟩ => show win0_5.index t (1 : Fin 2) * 768 + 1 * b.val = b.val; omega

theorem blk6_apply (c : Dev nD) (t : Fin cfg0.N) (a : Fin 1) (b : Fin 768) :
    (iblk m c 6 t : FVec Ideal S1x768 .f32) (ix2 a b) = V m c main_v8 (ix2 a b) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  show V m c main_v8 (((cfg0.win 6).blk t).view.emb (ix2 a b)) = _
  refine congrArg _ (funext fun d => Fin.ext ?_)
  match d with
  | ⟨0, _⟩ => show win0_6.index t (0 : Fin 2) * 1 + 1 * a.val = a.val; omega
  | ⟨1, _⟩ => show win0_6.index t (1 : Fin 2) * 768 + 1 * b.val = b.val; omega

theorem blk7_apply (c : Dev nD) (t : Fin cfg0.N) (a : Fin 256) (b : Fin 768) :
    (iblk m c 7 t : FVec Ideal S256x768 .f32) (ix2 a b) = V m c main_v4 (ix2 a b) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  show V m c main_v4 (((cfg0.win 7).blk t).view.emb (ix2 a b)) = _
  refine congrArg _ (funext fun d => Fin.ext ?_)
  match d with
  | ⟨0, _⟩ => show win0_7.index t (0 : Fin 2) * 256 + 1 * a.val = a.val; omega
  | ⟨1, _⟩ => show win0_7.index t (1 : Fin 2) * 768 + 1 * b.val = b.val; omega

theorem blk8_apply (c : Dev nD) (t : Fin cfg0.N) (a : Fin 1) (b : Fin 768) :
    (iblk m c 8 t : FVec Ideal S1x768 .f32) (ix2 a b) = V m c main_v9 (ix2 a b) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  show V m c main_v9 (((cfg0.win 8).blk t).view.emb (ix2 a b)) = _
  refine congrArg _ (funext fun d => Fin.ext ?_)
  match d with
  | ⟨0, _⟩ => show win0_8.index t (0 : Fin 2) * 1 + 1 * a.val = a.val; omega
  | ⟨1, _⟩ => show win0_8.index t (1 : Fin 2) * 768 + 1 * b.val = b.val; omega

theorem blk9_apply (c : Dev nD) (t : Fin cfg0.N) (a : Fin 256) (b : Fin 1) :
    (iblk m c 9 t : FVec Ideal S256x1 .f32) (ix2 a b) = V m c main_v5 (ix2 a b) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  show V m c main_v5 (((cfg0.win 9).blk t).view.emb (ix2 a b)) = _
  refine congrArg _ (funext fun d => Fin.ext ?_)
  match d with
  | ⟨0, _⟩ => show win0_9.index t (0 : Fin 2) * 256 + 1 * a.val = a.val; omega
  | ⟨1, _⟩ => show win0_9.index t (1 : Fin 2) * 1 + 1 * b.val = b.val; omega

theorem blk10_apply (c : Dev nD) (t : Fin cfg0.N) (a : Fin 1) (b : Fin 1) :
    (iblk m c 10 t : FVec Ideal S1x1 .f32) (ix2 a b) = V m c main_v10 (ix2 a b) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  show V m c main_v10 (((cfg0.win 10).blk t).view.emb (ix2 a b)) = _
  refine congrArg _ (funext fun d => Fin.ext ?_)
  match d with
  | ⟨0, _⟩ => show win0_10.index t (0 : Fin 2) * 1 + 1 * a.val = a.val; omega
  | ⟨1, _⟩ => show win0_10.index t (1 : Fin 2) * 1 + 1 * b.val = b.val; omega

/-- At point `t` the windows hold block `t` of the observations and the reference's own transposed weights and biases. -/
theorem blocks (c : Dev nD) (t : Fin cfg0.N) :
    Blocks (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      (iblk m c 0 t : FVec Ideal S1024x128 .f32) (iblk m c 1 t : FVec Ideal S128x256 .f32) (iblk m c 2 t : FVec Ideal S1x256 .f32)
      (iblk m c 3 t : FVec Ideal S256x256 .f32) (iblk m c 4 t : FVec Ideal S1x256 .f32) (iblk m c 5 t : FVec Ideal S256x768 .f32)
      (iblk m c 6 t : FVec Ideal S1x768 .f32) (iblk m c 7 t : FVec Ideal S256x768 .f32) (iblk m c 8 t : FVec Ideal S1x768 .f32)
      (iblk m c 9 t : FVec Ideal S256x1 .f32) (iblk m c 10 t : FVec Ideal S1x1 .f32) (tnum t) where
  hx := fun r d => (blk0_apply m c t r d).trans (congrFun (V_v0 m c) _)
  hw1 := fun d l => (blk1_apply m c t d l).trans (congrFun (V_v1 m c) _)
  hb1 := fun l => (blk2_apply m c t 0 l).trans (V_v6_apply m c l)
  hw2 := fun l j => (blk3_apply m c t l j).trans (congrFun (V_v2 m c) _)
  hb2 := fun j => (blk4_apply m c t 0 j).trans (V_v7_apply m c j)
  hw3 := fun k g => (blk5_apply m c t k g).trans (congrFun (V_v3 m c) _)
  hb3 := fun g => (blk6_apply m c t 0 g).trans (V_v8_apply m c g)
  hw4 := fun k g => (blk7_apply m c t k g).trans (congrFun (V_v4 m c) _)
  hb4 := fun g => (blk8_apply m c t 0 g).trans (V_v9_apply m c g)
  hw5 := fun k => (blk9_apply m c t k 0).trans (congrFun (V_v5 m c) _)
  hb5 := (blk10_apply m c t 0 0).trans (V_v10_apply m c 0)

/-! ## What a point writes back, and the array after the run -/

/-- The reference's decoder output, one entry per row, of the argument arrays. -/
abbrev rowsOut (c : Dev nD) : S65536x1.Idx → EReal := fun i => Cert.ReferenceIdeal.Read.val_main_v101 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) i

/-- Point `t` writes back block `t` of the reference's decoder output. -/
theorem flushed_eq (c : Dev nD) (t : Fin cfg0.N) :
    (dats m 0 c).flushed 11 t = ((cfg0.win 11).blk t).view.read (Elt Ideal) (rowsOut m c) := by
  show (cfg0.win 11).cut (grid0.coords t) ((dats m 0 c).after 11 t) = _
  rw [after0_11, out11_eq]
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  funext y
  obtain ⟨r, q, rfl⟩ : ∃ (r : Fin 1024) (q : Fin 1), y = ix2 r q := ⟨y 0, y 1, eq_ix2 y⟩
  obtain rfl : q = 0 := Fin.ext (by have := q.isLt; omega)
  refine (out_eq (blocks m c t) r).trans ?_
  show rowsOut m c (ix2 (trow (tnum t) r) (0 : Fin 1)) = rowsOut m c (((cfg0.win 11).blk t).view.emb (ix2 r (0 : Fin 1)))
  refine congrArg _ (funext fun d => Fin.ext ?_)
  match d with
  | ⟨0, _⟩ => show 1024 * t.val + r.val = win0_11.index t (0 : Fin 2) * 1024 + 1 * r.val; omega
  | ⟨1, _⟩ => show 0 = win0_11.index t (1 : Fin 2) * 1 + 1 * 0; omega

/-- An index of the output array is in point `t`'s block iff each coordinate is in the block's range. -/
theorem mem_blk (t : Fin cfg0.N) (i : S65536x1.Idx) :
    i ∈ ((cfg0.win 11).blk t).view.set ↔ ∀ a : Fin 2, win0_11.index t a * S1024x1.size a ≤ (i a).val ∧ (i a).val < win0_11.index t a * S1024x1.size a + S1024x1.size a := by
  show i ∈ ((View.whole main_v11).slice (win0_11.rect t)).set ↔ _
  rw [View.set_slice_whole, Rect.mem_set_unit]
  exact Iff.rfl

/-- The 64 blocks of 1024 rows tile the 65536 rows: row `i` is in block `i / 1024`. -/
theorem cover (i : S65536x1.Idx) : ∃ t : Fin cfg0.N, (cfg0.win 11).flush t = true ∧ i ∈ ((cfg0.win 11).blk t).view.set := by
  have h0 : (i 0).val < 65536 := (i 0).isLt
  have h1 : (i 1).val < 1 := (i 1).isLt
  have hlt : (i 0).val / 1024 < 64 := by omega
  refine ⟨⟨(i 0).val / 1024, lt_of_lt_of_eq hlt N_0.symm⟩, flush0_11 _, ?_⟩
  rw [mem_blk]
  obtain ⟨-, -, -, -, -, -, -, -, -, -, -, -, -, -, -, -, -, -, -, -, -, -, e11_0, e11_1⟩ := idx_facts ⟨(i 0).val / 1024, lt_of_lt_of_eq hlt N_0.symm⟩
  intro a
  match a with
  | ⟨0, _⟩ =>
    show win0_11.index ⟨(i 0).val / 1024, lt_of_lt_of_eq hlt N_0.symm⟩ (0 : Fin 2) * 1024 ≤ (i 0).val
      ∧ (i 0).val < win0_11.index ⟨(i 0).val / 1024, lt_of_lt_of_eq hlt N_0.symm⟩ (0 : Fin 2) * 1024 + 1024
    rw [e11_0]; show (i 0).val / 1024 * 1024 ≤ (i 0).val ∧ (i 0).val < (i 0).val / 1024 * 1024 + 1024; omega
  | ⟨1, _⟩ =>
    show win0_11.index ⟨(i 0).val / 1024, lt_of_lt_of_eq hlt N_0.symm⟩ (1 : Fin 2) * 1 ≤ (i 1).val
      ∧ (i 1).val < win0_11.index ⟨(i 0).val / 1024, lt_of_lt_of_eq hlt N_0.symm⟩ (1 : Fin 2) * 1 + 1
    rw [e11_1]; omega

/-- The output array after the run: the reference's decoder output, every row. -/
theorem final (c : Dev nD) : (dats m 0 c).arrAt 11 cfg0.N = rowsOut m c :=
  (dats m 0 c).arrAt_eq_of_cover 11 (rowsOut m c) (fun t _ => flushed_eq m c t) cover

/-! ## The host's last line, and the run -/

/-- The host regroups the rows by batch, exactly as the reference's last line does. -/
theorem tail (c : Dev nD) :
    Pipeline.afterTail₀ cfgs (dats m) 0 (V0 m) [hostOps1] c main_v12
      = Cert.ReferenceIdeal.Read.val_main_v102 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  unfold Pipeline.afterTail₀
  show StableHlo.after hostOps1 _ (Proc.devRef .tc main_v12) = _
  after_results
  rw [Pipeline.withArrays_arr spec0 launch0.win.arr_inj c _ _ 11, final]
  rfl

/-- Every weakly fair execution of the idealized kernel ends with its result at the reference's result term of the
    argument arrays, the arguments unchanged. -/
theorem run : θ_run defs (onTc (τ := τ) (main (F := Ideal))) ⟨m, fun _ => 0, ρ⟩ fun r => ∀ c : Dev nD,
      r.2.mem ((c.tc : Thread nD τ).loc main_v12) = Cert.ReferenceIdeal.Read.val_main_v102 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨((h c).2 main_v12 (Pipeline.mem_restRefs_of main_v12 (by decide) (by decide))).trans (tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c)⟩)
    (run_main m ρ)

end Cert.KernelIdeal.KValue

end
-- ==== Proof.lean ====
/-
  The certificate. On the extended reals the kernel and the reference compute one function: per row an encoder with
  a rectifier and a hidden layer, a GRU step from a zero input, the mean over the other agents of the row's batch, a
  second GRU step and a decoder. They differ only in that the kernel works on blocks of 1024 rows (32 whole batches),
  spells the zero input's gate rows as the bias itself (a product with the zero entry vanishes on every extended real),
  and multiplies by 1/32 where the reference divides by 32 (one law on every extended real); so the inputs' finiteness
  is not used. The three frames are the generated ones; nothing was rewritten by the ideal pass.
-/
import proofs.«148773_j23081154249051_2_alg».proof.Defs
import proofs.«148773_j23081154249051_2_alg».proof.Proof.Gen.Kernel
import proofs.«148773_j23081154249051_2_alg».proof.Proof.Gen.Kernel.Skeleton
import proofs.«148773_j23081154249051_2_alg».proof.Proof.Gen.Kernel.Launch
import proofs.«148773_j23081154249051_2_alg».proof.Proof.Gen.Kernel.Points
import proofs.«148773_j23081154249051_2_alg».proof.Proof.Gen.Kernel.Frame
import proofs.«148773_j23081154249051_2_alg».proof.Proof.Gen.KernelIdeal
import proofs.«148773_j23081154249051_2_alg».proof.Proof.Gen.KernelIdeal.Skeleton
import proofs.«148773_j23081154249051_2_alg».proof.Proof.Gen.KernelIdeal.Launch
import proofs.«148773_j23081154249051_2_alg».proof.Proof.Gen.KernelIdeal.Points
import proofs.«148773_j23081154249051_2_alg».proof.Proof.Gen.KernelIdeal.Frame
import proofs.«148773_j23081154249051_2_alg».proof.Proof.Gen.ReferenceIdeal
import proofs.«148773_j23081154249051_2_alg».proof.Proof.Gen.ReferenceIdeal.Run
import proofs.«148773_j23081154249051_2_alg».proof.Proof.Gen.ReferenceIdeal.Read
import proofs.«148773_j23081154249051_2_alg».proof.Proof.Gen.Pre_finite_inputs
import proofs.«148773_j23081154249051_2_alg».proof.Proof.KValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both runs end with the result at the reference's result term of the (agreeing) argument arrays. -/
theorem algebraic : Cert.algebraic_KernelIdeal_ReferenceIdeal := by
  intro m ρ m' ρ' _ hagree
  refine ⟨fun c => Cert.ReferenceIdeal.Read.val_main_v102 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, -, a2, a3, a4, a5, a6, a7, a8, a9, a10, a11⟩ := hagree c
  rw [Cert.ReferenceIdeal.Read.val_main_v102_eq, a0, a2, a3, a4, a5, a6, a7, a8, a9, a10, a11]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
